-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S150000x64 : Shape := ⟨2, ![150000, 64]⟩
abbrev S2x1200000 : Shape := ⟨2, ![2, 1200000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S150000x64 : S_.BroadcastsInDim S150000x64 (![] : Fin 0 → Fin S150000x64.rank)
  reducesTo_S150000x64_S_d0_1 : S150000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S150000x64 .f32) (main_arg1 : IVec S2x1200000 32) (main_arg2 : FVec F S64x64 .f32) (main_arg3 : FVec F S64 .f32) (main_arg4 : FVec F S64x1 .f32) (main_arg5 : FVec F S1 .f32) : IVec S_ 1 :=
  let main_v0 : FVec F S150000x64 .f32 := Host.absf main_arg0
  let main_cst : FVec F S_ .f32 := constant S_ .f32 0x7F800000#32
  let main_v1 : FVec F S150000x64 .f32 := broadcastInDim S150000x64 ![] bcast_S_S150000x64 main_cst
  let main_v2 : IVec S150000x64 1 := cmpf .olt main_v0 main_v1
  let main_c : IVec S_ 1 := constantI S_ 1 1#1
  let main_v3 : IVec S_ 1 := (fun x v => Host.reduce IntOp.andi x v reducesTo_S150000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x1 .f32 := Host.absf main_arg4
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_arg5 main_v13 main_v16
-- ==== Kernel.lean ====
abbrev S150000x64 : Shape := ⟨2, ![150000, 64]⟩
abbrev S2x1200000 : Shape := ⟨2, ![2, 1200000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x1200000 : Shape := ⟨2, ![1, 1200000]⟩
abbrev S1200000 : Shape := ⟨1, ![1200000]⟩
abbrev S_ : Shape := ⟨0, ![]⟩
abbrev S150000 : Shape := ⟨1, ![150000]⟩
abbrev S1200000x1 : Shape := ⟨2, ![1200000, 1]⟩
abbrev S150000x1 : Shape := ⟨2, ![150000, 1]⟩
abbrev S6000x64 : Shape := ⟨2, ![6000, 64]⟩
abbrev S1200000x64 : Shape := ⟨2, ![1200000, 64]⟩
abbrev S1x64 : Shape := ⟨2, ![1, 64]⟩
abbrev S6000x1 : Shape := ⟨2, ![6000, 1]⟩
abbrev S1x1 : Shape := ⟨2, ![1, 1]⟩
abbrev S10000x15 : Shape := ⟨2, ![10000, 15]⟩
abbrev S10000x12 : Shape := ⟨2, ![10000, 12]⟩
abbrev S120000 : Shape := ⟨1, ![120000]⟩

abbrev nBuf : Space → Nat
  | .hbm => 100
  | .vmem => 28
  | .smem => 0
  | _ => 0

abbrev bufTy : (tb : Table) → Fin (tcTables nBuf tb) → BufTy
  | .hbm, ⟨0, _⟩ => ⟨S150000x64, .f32⟩
  | .hbm, ⟨1, _⟩ => ⟨S2x1200000, .i32⟩
  | .hbm, ⟨2, _⟩ => ⟨S64x64, .f32⟩
  | .hbm, ⟨3, _⟩ => ⟨S64, .f32⟩
  | .hbm, ⟨4, _⟩ => ⟨S64x1, .f32⟩
  | .hbm, ⟨5, _⟩ => ⟨S1, .f32⟩
  | .hbm, ⟨6, _⟩ => ⟨S1x1200000, .i32⟩
  | .hbm, ⟨7, _⟩ => ⟨S1200000, .i32⟩
  | .hbm, ⟨8, _⟩ => ⟨S1x1200000, .i32⟩
  | .hbm, ⟨9, _⟩ => ⟨S1200000, .i32⟩
  | .hbm, ⟨10, _⟩ => ⟨S_, .f32⟩
  | .hbm, ⟨11, _⟩ => ⟨S1200000, .f32⟩
  | .hbm, ⟨12, _⟩ => ⟨S_, .f32⟩
  | .hbm, ⟨13, _⟩ => ⟨S150000, .f32⟩
  | .hbm, ⟨14, _⟩ => ⟨S1200000x1, .i32⟩
  | .hbm, ⟨15, _⟩ => ⟨S150000, .f32⟩
  | .hbm, ⟨16, _⟩ => ⟨S_, .f32⟩
  | .hbm, ⟨17, _⟩ => ⟨S150000, .f32⟩
  | .hbm, ⟨18, _⟩ => ⟨S150000, .f32⟩
  | .hbm, ⟨19, _⟩ => ⟨S150000, .f32⟩
  | .hbm, ⟨20, _⟩ => ⟨S150000, .f32⟩
  | .hbm, ⟨21, _⟩ => ⟨S150000x1, .f32⟩
  | .hbm, ⟨22, _⟩ => ⟨S150000x64, .f32⟩
  | .hbm, ⟨23, _⟩ => ⟨S_, .i32⟩
  | .hbm, ⟨24, _⟩ => ⟨S1200000, .i32⟩
  | .hbm, ⟨25, _⟩ => ⟨S1200000, .i1⟩
  | .hbm, ⟨26, _⟩ => ⟨S_, .i32⟩
  | .hbm, ⟨27, _⟩ => ⟨S1200000, .i32⟩
  | .hbm, ⟨28, _⟩ => ⟨S1200000, .i32⟩
  | .hbm, ⟨29, _⟩ => ⟨S1200000, .i32⟩
  | .hbm, ⟨30, _⟩ => ⟨S1200000x1, .i32⟩
  | .hbm, ⟨31, _⟩ => ⟨S1200000, .f32⟩
  | .hbm, ⟨32, _⟩ => ⟨S_, .i32⟩
  | .hbm, ⟨33, _⟩ => ⟨S1200000, .i32⟩
  | .hbm, ⟨34, _⟩ => ⟨S1200000, .i1⟩
  | .hbm, ⟨35, _⟩ => ⟨S_, .i32⟩
  | .hbm, ⟨36, _⟩ => ⟨S1200000, .i32⟩
  | .hbm, ⟨37, _⟩ => ⟨S1200000, .i32⟩
  | .hbm, ⟨38, _⟩ => ⟨S1200000, .i32⟩
  | .hbm, ⟨39, _⟩ => ⟨S1200000x1, .i32⟩
  | .hbm, ⟨40, _⟩ => ⟨S1200000, .f32⟩
  | .hbm, ⟨41, _⟩ => ⟨S1200000, .f32⟩
  | .hbm, ⟨42, _⟩ => ⟨S_, .i32⟩
  | .hbm, ⟨43, _⟩ => ⟨S1200000, .i32⟩
  | .hbm, ⟨44, _⟩ => ⟨S1200000, .i1⟩
  | .hbm, ⟨45, _⟩ => ⟨S_, .i32⟩
  | .hbm, ⟨46, _⟩ => ⟨S1200000, .i32⟩
  | .hbm, ⟨47, _⟩ => ⟨S1200000, .i32⟩
  | .hbm, ⟨48, _⟩ => ⟨S1200000, .i32⟩
  | .hbm, ⟨49, _⟩ => ⟨S1200000x1, .i32⟩
  | .hbm, ⟨50, _⟩ => ⟨S1200000x64, .f32⟩
  | .hbm, ⟨51, _⟩ => ⟨S1200000x1, .f32⟩
  | .hbm, ⟨52, _⟩ => ⟨S1200000x64, .f32⟩
  | .hbm, ⟨53, _⟩ => ⟨S1200000x64, .f32⟩
  | .hbm, ⟨54, _⟩ => ⟨S_, .f32⟩
  | .hbm, ⟨55, _⟩ => ⟨S150000x64, .f32⟩
  | .hbm, ⟨56, _⟩ => ⟨S1200000x1, .i32⟩
  | .hbm, ⟨57, _⟩ => ⟨S150000x64, .f32⟩
  | .hbm, ⟨58, _⟩ => ⟨S1x64, .f32⟩
  | .hbm, ⟨59, _⟩ => ⟨S150000x64, .f32⟩
  | .hbm, ⟨60, _⟩ => ⟨S150000x1, .f32⟩
  | .hbm, ⟨61, _⟩ => ⟨S_, .i32⟩
  | .hbm, ⟨62, _⟩ => ⟨S1200000, .i32⟩
  | .hbm, ⟨63, _⟩ => ⟨S1200000, .i1⟩
  | .hbm, ⟨64, _⟩ => ⟨S_, .i32⟩
  | .hbm, ⟨65, _⟩ => ⟨S1200000, .i32⟩
  | .hbm, ⟨66, _⟩ => ⟨S1200000, .i32⟩
  | .hbm, ⟨67, _⟩ => ⟨S1200000, .i32⟩
  | .hbm, ⟨68, _⟩ => ⟨S1200000x1, .i32⟩
  | .hbm, ⟨69, _⟩ => ⟨S1200000, .f32⟩
  | .hbm, ⟨70, _⟩ => ⟨S_, .i32⟩
  | .hbm, ⟨71, _⟩ => ⟨S1200000, .i32⟩
  | .hbm, ⟨72, _⟩ => ⟨S1200000, .i1⟩
  | .hbm, ⟨73, _⟩ => ⟨S_, .i32⟩
  | .hbm, ⟨74, _⟩ => ⟨S1200000, .i32⟩
  | .hbm, ⟨75, _⟩ => ⟨S1200000, .i32⟩
  | .hbm, ⟨76, _⟩ => ⟨S1200000, .i32⟩
  | .hbm, ⟨77, _⟩ => ⟨S1200000x1, .i32⟩
  | .hbm, ⟨78, _⟩ => ⟨S1200000, .f32⟩
  | .hbm, ⟨79, _⟩ => ⟨S1200000, .f32⟩
  | .hbm, ⟨80, _⟩ => ⟨S_, .i32⟩
  | .hbm, ⟨81, _⟩ => ⟨S1200000, .i32⟩
  | .hbm, ⟨82, _⟩ => ⟨S1200000, .i1⟩
  | .hbm, ⟨83, _⟩ => ⟨S_, .i32⟩
  | .hbm, ⟨84, _⟩ => ⟨S1200000, .i32⟩
  | .hbm, ⟨85, _⟩ => ⟨S1200000, .i32⟩
  | .hbm, ⟨86, _⟩ => ⟨S1200000, .i32⟩
  | .hbm, ⟨87, _⟩ => ⟨S1200000x1, .i32⟩
  | .hbm, ⟨88, _⟩ => ⟨S1200000x1, .f32⟩
  | .hbm, ⟨89, _⟩ => ⟨S1200000x1, .f32⟩
  | .hbm, ⟨90, _⟩ => ⟨S1200000x1, .f32⟩
  | .hbm, ⟨91, _⟩ => ⟨S_, .f32⟩
  | .hbm, ⟨92, _⟩ => ⟨S150000x1, .f32⟩
  | .hbm, ⟨93, _⟩ => ⟨S1200000x1, .i32⟩
  | .hbm, ⟨94, _⟩ => ⟨S150000x1, .f32⟩
  | .hbm, ⟨95, _⟩ => ⟨S1x1, .f32⟩
  | .hbm, ⟨96, _⟩ => ⟨S150000x1, .f32⟩
  | .hbm, ⟨97, _⟩ => ⟨S10000x15, .f32⟩
  | .hbm, ⟨98, _⟩ => ⟨S10000x12, .f32⟩
  | .hbm, ⟨99, _⟩ => ⟨S120000, .f32⟩
  | .local _ .vmem, ⟨0, _⟩ => ⟨S6000x64, .f32⟩
  | .local _ .vmem, ⟨1, _⟩ => ⟨S6000x64, .f32⟩
  | .local _ .vmem, ⟨2, _⟩ => ⟨S64x64, .f32⟩
  | .local _ .vmem, ⟨3, _⟩ => ⟨S6000x64, .f32⟩
  | .local _ .vmem, ⟨4, _⟩ => ⟨S6000x64, .f32⟩
  | .local _ .vmem, ⟨5, _⟩ => ⟨S6000x64, .f32⟩
  | .local _ .vmem, ⟨6, _⟩ => ⟨S6000x64, .f32⟩
  | .local _ .vmem, ⟨7, _⟩ => ⟨S6000x64, .f32⟩
  | .local _ .vmem, ⟨8, _⟩ => ⟨S6000x64, .f32⟩
  | .local _ .vmem, ⟨9, _⟩ => ⟨S6000x1, .f32⟩
  | .local _ .vmem, ⟨10, _⟩ => ⟨S6000x1, .f32⟩
  | .local _ .vmem, ⟨11, _⟩ => ⟨S1x64, .f32⟩
  | .local _ .vmem, ⟨12, _⟩ => ⟨S6000x64, .f32⟩
  | .local _ .vmem, ⟨13, _⟩ => ⟨S6000x64, .f32⟩
  | .local _ .vmem, ⟨14, _⟩ => ⟨S6000x64, .f32⟩
  | .local _ .vmem, ⟨15, _⟩ => ⟨S6000x64, .f32⟩
  | .local _ .vmem, ⟨16, _⟩ => ⟨S64x1, .f32⟩
  | .local _ .vmem, ⟨17, _⟩ => ⟨S6000x1, .f32⟩
  | .local _ .vmem, ⟨18, _⟩ => ⟨S6000x1, .f32⟩
  | .local _ .vmem, ⟨19, _⟩ => ⟨S6000x1, .f32⟩
  | .local _ .vmem, ⟨20, _⟩ => ⟨S6000x1, .f32⟩
  | .local _ .vmem, ⟨21, _⟩ => ⟨S6000x1, .f32⟩
  | .local _ .vmem, ⟨22, _⟩ => ⟨S6000x1, .f32⟩
  | .local _ .vmem, ⟨23, _⟩ => ⟨S6000x1, .f32⟩
  | .local _ .vmem, ⟨24, _⟩ => ⟨S6000x1, .f32⟩
  | .local _ .vmem, ⟨25, _⟩ => ⟨S1x1, .f32⟩
  | .local _ .vmem, ⟨26, _⟩ => ⟨S6000x1, .f32⟩
  | .local _ .vmem, ⟨27, _⟩ => ⟨S6000x1, .f32⟩
  | _, _ => ⟨S150000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_5 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_8 : Ref sig .tc := ⟨.hbm, 61, rfl⟩
abbrev main_v45 : Ref sig .tc := ⟨.hbm, 62, rfl⟩
abbrev main_v46 : Ref sig .tc := ⟨.hbm, 63, rfl⟩
abbrev main_c_9 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_c_10 : Ref sig .tc := ⟨.hbm, 70, rfl⟩
abbrev main_v52 : Ref sig .tc := ⟨.hbm, 71, rfl⟩
abbrev main_v53 : Ref sig .tc := ⟨.hbm, 72, rfl⟩
abbrev main_c_11 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_c_12 : Ref sig .tc := ⟨.hbm, 80, rfl⟩
abbrev main_v60 : Ref sig .tc := ⟨.hbm, 81, rfl⟩
abbrev main_v61 : Ref sig .tc := ⟨.hbm, 82, rfl⟩
abbrev main_c_13 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_14 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S6000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S6000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S6000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S6000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S6000x1 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S6000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S6000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S6000x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S_S150000 : S_.BroadcastsInDim S150000 (![] : Fin 0 → Fin S150000.rank)
  bcast_S1200000_S1200000x1_0 : S1200000.BroadcastsInDim S1200000x1 (![0] : Fin 1 → Fin S1200000x1.rank)
  shapeCasts_S150000_S150000x1 : S150000.ShapeCasts S150000x1
  inb_S6000x64_S6000x64_0_0 : ∀ a, (![0, 0] : Fin 2 → Nat) a + S6000x64.size a ≤ S6000x64.size a
  h_S6000x64 : 0 < S6000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1200000x1_S1200000x64_0_1 : S1200000x1.BroadcastsInDim S1200000x64 (![0, 1] : Fin 2 → Fin S1200000x64.rank)
  bcast_S_S150000x64 : S_.BroadcastsInDim S150000x64 (![] : Fin 0 → Fin S150000x64.rank)
  shapeCasts_S64_S1x64 : S64.ShapeCasts S1x64
  shapeCasts_S6000x64_S6000x64 : S6000x64.ShapeCasts S6000x64
  inb_S6000x1_S6000x1_0_0 : ∀ a, (![0, 0] : Fin 2 → Nat) a + S6000x1.size a ≤ S6000x1.size a
  h_S6000x1 : 0 < S6000x1.numel
  shapeCasts_S6000x1_S6000x1 : S6000x1.ShapeCasts S6000x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S6000x1_S6000x64 : S6000x1.Broadcasts S6000x64
  broadcasts_S1x64_S6000x64 : S1x64.Broadcasts S6000x64
  inb_S64x1_S64x1_0_0 : ∀ a, (![0, 0] : Fin 2 → Nat) a + S64x1.size a ≤ S64x1.size a
  h_S64x1 : 0 < S64x1.numel
  bcast_S_S150000x1 : S_.BroadcastsInDim S150000x1 (![] : Fin 0 → Fin S150000x1.rank)
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S6000x1 : S1x1.Broadcasts S6000x1
  shapeCasts_S150000x1_S10000x15 : S150000x1.ShapeCasts S10000x15
  slices_S10000x15_S10000x12_0_3 : S10000x15.Slices ![0, 3] S10000x12
  shapeCasts_S10000x12_S120000 : S10000x12.ShapeCasts S120000
  scatter_S150000_S1200000x1_S1200000_n_0_0_1_wf : ScatterDims.WF S150000 S1200000x1 S1200000 [] [0] [0] 1
  dot_S6000x64_S64x64_S6000x64_1_0_0_1_n_n_wf : DotDims.WF S6000x64 S64x64 S6000x64 [1] [0] [0] [1] [] []
  gather_S150000_S1200000x1_S1200000_n_0_n_n_0_1_1_wf : GatherDims.WF S150000 S1200000x1 S1200000 [] [0] [] [0] [] 1 ![1]
  gather_S150000x64_S1200000x1_S1200000x64_1_0_n_n_0_1_164_wf : GatherDims.WF S150000x64 S1200000x1 S1200000x64 [1] [0] [] [0] [] 1 ![1, 64]
  scatter_S150000x64_S1200000x1_S1200000x64_1_0_0_1_wf : ScatterDims.WF S150000x64 S1200000x1 S1200000x64 [1] [0] [0] 1
  dot_S6000x64_S64x1_S6000x1_1_0_0_1_n_n_wf : DotDims.WF S6000x64 S64x1 S6000x1 [1] [0] [0] [1] [] []
  gather_S150000x1_S1200000x1_S1200000x1_1_0_n_n_0_1_11_wf : GatherDims.WF S150000x1 S1200000x1 S1200000x1 [1] [0] [] [0] [] 1 ![1, 1]
  scatter_S150000x1_S1200000x1_S1200000x1_1_0_0_1_wf : ScatterDims.WF S150000x1 S1200000x1 S1200000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x64.size a ≤ S150000x64.size a
  hwx0_0 : ∀ i : grid0.Coords, EltTy.bits .f32 = 32 ∨ (Rect.block (s := S150000x64) S6000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6000x64.size a ≤ S150000x64.size a
  hwx0_2 : ∀ i : grid0.Coords, EltTy.bits .f32 = 32 ∨ (Rect.block (s := S150000x64) S6000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6000x64.size a ≤ S150000x64.size a
  hwx1_0 : ∀ i : grid1.Coords, EltTy.bits .f32 = 32 ∨ (Rect.block (s := S150000x64) S6000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6000x64.size a ≤ S150000x64.size a
  hwx1_1 : ∀ i : grid1.Coords, EltTy.bits .f32 = 32 ∨ (Rect.block (s := S150000x64) S6000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6000x1.size a ≤ S150000x1.size a
  hwx1_2 : ∀ i : grid1.Coords, EltTy.bits .f32 = 32 ∨ (Rect.block (s := S150000x1) S6000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S6000x64.size a ≤ S150000x64.size a
  hwx1_4 : ∀ i : grid1.Coords, EltTy.bits .f32 = 32 ∨ (Rect.block (s := S150000x64) S6000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6000x64.size a ≤ S150000x64.size a
  hwx2_0 : ∀ i : grid2.Coords, EltTy.bits .f32 = 32 ∨ (Rect.block (s := S150000x64) S6000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x1.size a ≤ S64x1.size a
  hwx2_1 : ∀ i : grid2.Coords, EltTy.bits .f32 = 32 ∨ (Rect.block (s := S64x1) S64x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S6000x1.size a ≤ S150000x1.size a
  hwx2_2 : ∀ i : grid2.Coords, EltTy.bits .f32 = 32 ∨ (Rect.block (s := S150000x1) S6000x1.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S6000x1.size a ≤ S150000x1.size a
  hwx3_0 : ∀ i : grid3.Coords, EltTy.bits .f32 = 32 ∨ (Rect.block (s := S150000x1) S6000x1.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S6000x1.size a ≤ S150000x1.size a
  hwx3_1 : ∀ i : grid3.Coords, EltTy.bits .f32 = 32 ∨ (Rect.block (s := S150000x1) S6000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S6000x1.size a ≤ S150000x1.size a
  hwx3_2 : ∀ i : grid3.Coords, EltTy.bits .f32 = 32 ∨ (Rect.block (s := S150000x1) S6000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x1.size a ≤ S1x1.size a
  hwx3_3 : ∀ i : grid3.Coords, EltTy.bits .f32 = 32 ∨ (Rect.block (s := S1x1) S1x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S6000x1.size a ≤ S150000x1.size a
  hwx3_4 : ∀ i : grid3.Coords, EltTy.bits .f32 = 32 ∨ (Rect.block (s := S150000x1) S6000x1.size (cc3_transform_4 i) (hinb3_4 i)).WholeWords (EltTy.packing .f32)

variable [Facts₀]

def scatter_S150000_S1200000x1_S1200000_n_0_0_1 : ScatterDims S150000 S1200000x1 S1200000 where
  updateWindowDims := []
  insertedWindowDims := [0]
  scatterDimsToOperandDims := [0]
  indexVectorDim := 1
  wf := scatter_S150000_S1200000x1_S1200000_n_0_0_1_wf
def dot_S6000x64_S64x64_S6000x64_1_0_0_1_n_n : DotDims S6000x64 S64x64 S6000x64 where
  lhsContracting := [1]
  rhsContracting := [0]
  lhsNonContracting := [0]
  rhsNonContracting := [1]
  lhsBatch := []
  rhsBatch := []
  wf := dot_S6000x64_S64x64_S6000x64_1_0_0_1_n_n_wf
def gather_S150000_S1200000x1_S1200000_n_0_n_n_0_1_1 : GatherDims S150000 S1200000x1 S1200000 where
  offsetDims := []
  collapsedSliceDims := [0]
  operandBatchingDims := []
  startIndicesBatchingDims := []
  startIndexMap := [0]
  indexVectorDim := 1
  sliceSizes := ![1]
  wf := gather_S150000_S1200000x1_S1200000_n_0_n_n_0_1_1_wf
def gather_S150000x64_S1200000x1_S1200000x64_1_0_n_n_0_1_164 : GatherDims S150000x64 S1200000x1 S1200000x64 where
  offsetDims := [1]
  collapsedSliceDims := [0]
  operandBatchingDims := []
  startIndicesBatchingDims := []
  startIndexMap := [0]
  indexVectorDim := 1
  sliceSizes := ![1, 64]
  wf := gather_S150000x64_S1200000x1_S1200000x64_1_0_n_n_0_1_164_wf
def scatter_S150000x64_S1200000x1_S1200000x64_1_0_0_1 : ScatterDims S150000x64 S1200000x1 S1200000x64 where
  updateWindowDims := [1]
  insertedWindowDims := [0]
  scatterDimsToOperandDims := [0]
  indexVectorDim := 1
  wf := scatter_S150000x64_S1200000x1_S1200000x64_1_0_0_1_wf
def dot_S6000x64_S64x1_S6000x1_1_0_0_1_n_n : DotDims S6000x64 S64x1 S6000x1 where
  lhsContracting := [1]
  rhsContracting := [0]
  lhsNonContracting := [0]
  rhsNonContracting := [1]
  lhsBatch := []
  rhsBatch := []
  wf := dot_S6000x64_S64x1_S6000x1_1_0_0_1_n_n_wf
def gather_S150000x1_S1200000x1_S1200000x1_1_0_n_n_0_1_11 : GatherDims S150000x1 S1200000x1 S1200000x1 where
  offsetDims := [1]
  collapsedSliceDims := [0]
  operandBatchingDims := []
  startIndicesBatchingDims := []
  startIndexMap := [0]
  indexVectorDim := 1
  sliceSizes := ![1, 1]
  wf := gather_S150000x1_S1200000x1_S1200000x1_1_0_n_n_0_1_11_wf
def scatter_S150000x1_S1200000x1_S1200000x1_1_0_0_1 : ScatterDims S150000x1 S1200000x1 S1200000x1 where
  updateWindowDims := [1]
  insertedWindowDims := [0]
  scatterDimsToOperandDims := [0]
  indexVectorDim := 1
  wf := scatter_S150000x1_S1200000x1_S1200000x1_1_0_0_1_wf

abbrev win0_0 : Pipeline.Window sig grid0 :=
  Pipeline.Window.ofSpec (Memref.whole main_arg0) S6000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S6000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S6000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S6000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S6000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S6000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S6000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S6000x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v71) S6000x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S6000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S6000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v72) S1x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v73) S6000x1.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S150000x64 : Shape := ⟨2, ![150000, 64]⟩
abbrev S2x1200000 : Shape := ⟨2, ![2, 1200000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x1200000 : Shape := ⟨2, ![1, 1200000]⟩
abbrev S1200000 : Shape := ⟨1, ![1200000]⟩
abbrev S_ : Shape := ⟨0, ![]⟩
abbrev S150000 : Shape := ⟨1, ![150000]⟩
abbrev S1200000x1 : Shape := ⟨2, ![1200000, 1]⟩
abbrev S1200000x64 : Shape := ⟨2, ![1200000, 64]⟩
abbrev S150000x1 : Shape := ⟨2, ![150000, 1]⟩
abbrev S1x64 : Shape := ⟨2, ![1, 64]⟩
abbrev S1x1 : Shape := ⟨2, ![1, 1]⟩
abbrev S10000x15 : Shape := ⟨2, ![10000, 15]⟩
abbrev S10000x12 : Shape := ⟨2, ![10000, 12]⟩
abbrev S120000 : Shape := ⟨1, ![120000]⟩

abbrev nBuf : Space → Nat
  | .hbm => 125
  | .vmem => 0
  | .smem => 0
  | _ => 0

abbrev bufTy : (tb : Table) → Fin (tcTables nBuf tb) → BufTy
  | .hbm, ⟨0, _⟩ => ⟨S150000x64, .f32⟩
  | .hbm, ⟨1, _⟩ => ⟨S2x1200000, .i32⟩
  | .hbm, ⟨2, _⟩ => ⟨S64x64, .f32⟩
  | .hbm, ⟨3, _⟩ => ⟨S64, .f32⟩
  | .hbm, ⟨4, _⟩ => ⟨S64x1, .f32⟩
  | .hbm, ⟨5, _⟩ => ⟨S1, .f32⟩
  | .hbm, ⟨6, _⟩ => ⟨S1x1200000, .i32⟩
  | .hbm, ⟨7, _⟩ => ⟨S1200000, .i32⟩
  | .hbm, ⟨8, _⟩ => ⟨S1x1200000, .i32⟩
  | .hbm, ⟨9, _⟩ => ⟨S1200000, .i32⟩
  | .hbm, ⟨10, _⟩ => ⟨S150000x64, .f32⟩
  | .hbm, ⟨11, _⟩ => ⟨S_, .f32⟩
  | .hbm, ⟨12, _⟩ => ⟨S1200000, .f32⟩
  | .hbm, ⟨13, _⟩ => ⟨S_, .f32⟩
  | .hbm, ⟨14, _⟩ => ⟨S150000, .f32⟩
  | .hbm, ⟨15, _⟩ => ⟨S1200000x1, .i32⟩
  | .hbm, ⟨16, _⟩ => ⟨S150000, .f32⟩
  | .hbm, ⟨17, _⟩ => ⟨S_, .f32⟩
  | .hbm, ⟨18, _⟩ => ⟨S150000, .f32⟩
  | .hbm, ⟨19, _⟩ => ⟨S150000, .f32⟩
  | .hbm, ⟨20, _⟩ => ⟨S150000, .f32⟩
  | .hbm, ⟨21, _⟩ => ⟨S_, .i32⟩
  | .hbm, ⟨22, _⟩ => ⟨S1200000, .i32⟩
  | .hbm, ⟨23, _⟩ => ⟨S1200000, .i1⟩
  | .hbm, ⟨24, _⟩ => ⟨S_, .i32⟩
  | .hbm, ⟨25, _⟩ => ⟨S1200000, .i32⟩
  | .hbm, ⟨26, _⟩ => ⟨S1200000, .i32⟩
  | .hbm, ⟨27, _⟩ => ⟨S1200000, .i32⟩
  | .hbm, ⟨28, _⟩ => ⟨S1200000x1, .i32⟩
  | .hbm, ⟨29, _⟩ => ⟨S1200000, .f32⟩
  | .hbm, ⟨30, _⟩ => ⟨S_, .i32⟩
  | .hbm, ⟨31, _⟩ => ⟨S1200000, .i32⟩
  | .hbm, ⟨32, _⟩ => ⟨S1200000, .i1⟩
  | .hbm, ⟨33, _⟩ => ⟨S_, .i32⟩
  | .hbm, ⟨34, _⟩ => ⟨S1200000, .i32⟩
  | .hbm, ⟨35, _⟩ => ⟨S1200000, .i32⟩
  | .hbm, ⟨36, _⟩ => ⟨S1200000, .i32⟩
  | .hbm, ⟨37, _⟩ => ⟨S1200000x1, .i32⟩
  | .hbm, ⟨38, _⟩ => ⟨S1200000, .f32⟩
  | .hbm, ⟨39, _⟩ => ⟨S1200000, .f32⟩
  | .hbm, ⟨40, _⟩ => ⟨S_, .i32⟩
  | .hbm, ⟨41, _⟩ => ⟨S1200000, .i32⟩
  | .hbm, ⟨42, _⟩ => ⟨S1200000, .i1⟩
  | .hbm, ⟨43, _⟩ => ⟨S_, .i32⟩
  | .hbm, ⟨44, _⟩ => ⟨S1200000, .i32⟩
  | .hbm, ⟨45, _⟩ => ⟨S1200000, .i32⟩
  | .hbm, ⟨46, _⟩ => ⟨S1200000, .i32⟩
  | .hbm, ⟨47, _⟩ => ⟨S1200000x1, .i32⟩
  | .hbm, ⟨48, _⟩ => ⟨S1200000x64, .f32⟩
  | .hbm, ⟨49, _⟩ => ⟨S1200000x1, .f32⟩
  | .hbm, ⟨50, _⟩ => ⟨S1200000x64, .f32⟩
  | .hbm, ⟨51, _⟩ => ⟨S1200000x64, .f32⟩
  | .hbm, ⟨52, _⟩ => ⟨S_, .f32⟩
  | .hbm, ⟨53, _⟩ => ⟨S150000x64, .f32⟩
  | .hbm, ⟨54, _⟩ => ⟨S1200000x1, .i32⟩
  | .hbm, ⟨55, _⟩ => ⟨S150000x64, .f32⟩
  | .hbm, ⟨56, _⟩ => ⟨S150000, .f32⟩
  | .hbm, ⟨57, _⟩ => ⟨S150000x1, .f32⟩
  | .hbm, ⟨58, _⟩ => ⟨S150000x64, .f32⟩
  | .hbm, ⟨59, _⟩ => ⟨S150000x64, .f32⟩
  | .hbm, ⟨60, _⟩ => ⟨S150000x64, .f32⟩
  | .hbm, ⟨61, _⟩ => ⟨S1x64, .f32⟩
  | .hbm, ⟨62, _⟩ => ⟨S150000x64, .f32⟩
  | .hbm, ⟨63, _⟩ => ⟨S150000x64, .f32⟩
  | .hbm, ⟨64, _⟩ => ⟨S_, .f32⟩
  | .hbm, ⟨65, _⟩ => ⟨S150000x64, .f32⟩
  | .hbm, ⟨66, _⟩ => ⟨S150000x64, .f32⟩
  | .hbm, ⟨67, _⟩ => ⟨S150000x1, .f32⟩
  | .hbm, ⟨68, _⟩ => ⟨S_, .f32⟩
  | .hbm, ⟨69, _⟩ => ⟨S1200000, .f32⟩
  | .hbm, ⟨70, _⟩ => ⟨S_, .f32⟩
  | .hbm, ⟨71, _⟩ => ⟨S150000, .f32⟩
  | .hbm, ⟨72, _⟩ => ⟨S1200000x1, .i32⟩
  | .hbm, ⟨73, _⟩ => ⟨S150000, .f32⟩
  | .hbm, ⟨74, _⟩ => ⟨S_, .f32⟩
  | .hbm, ⟨75, _⟩ => ⟨S150000, .f32⟩
  | .hbm, ⟨76, _⟩ => ⟨S150000, .f32⟩
  | .hbm, ⟨77, _⟩ => ⟨S150000, .f32⟩
  | .hbm, ⟨78, _⟩ => ⟨S_, .i32⟩
  | .hbm, ⟨79, _⟩ => ⟨S1200000, .i32⟩
  | .hbm, ⟨80, _⟩ => ⟨S1200000, .i1⟩
  | .hbm, ⟨81, _⟩ => ⟨S_, .i32⟩
  | .hbm, ⟨82, _⟩ => ⟨S1200000, .i32⟩
  | .hbm, ⟨83, _⟩ => ⟨S1200000, .i32⟩
  | .hbm, ⟨84, _⟩ => ⟨S1200000, .i32⟩
  | .hbm, ⟨85, _⟩ => ⟨S1200000x1, .i32⟩
  | .hbm, ⟨86, _⟩ => ⟨S1200000, .f32⟩
  | .hbm, ⟨87, _⟩ => ⟨S_, .i32⟩
  | .hbm, ⟨88, _⟩ => ⟨S1200000, .i32⟩
  | .hbm, ⟨89, _⟩ => ⟨S1200000, .i1⟩
  | .hbm, ⟨90, _⟩ => ⟨S_, .i32⟩
  | .hbm, ⟨91, _⟩ => ⟨S1200000, .i32⟩
  | .hbm, ⟨92, _⟩ => ⟨S1200000, .i32⟩
  | .hbm, ⟨93, _⟩ => ⟨S1200000, .i32⟩
  | .hbm, ⟨94, _⟩ => ⟨S1200000x1, .i32⟩
  | .hbm, ⟨95, _⟩ => ⟨S1200000, .f32⟩
  | .hbm, ⟨96, _⟩ => ⟨S1200000, .f32⟩
  | .hbm, ⟨97, _⟩ => ⟨S_, .i32⟩
  | .hbm, ⟨98, _⟩ => ⟨S1200000, .i32⟩
  | .hbm, ⟨99, _⟩ => ⟨S1200000, .i1⟩
  | .hbm, ⟨100, _⟩ => ⟨S_, .i32⟩
  | .hbm, ⟨101, _⟩ => ⟨S1200000, .i32⟩
  | .hbm, ⟨102, _⟩ => ⟨S1200000, .i32⟩
  | .hbm, ⟨103, _⟩ => ⟨S1200000, .i32⟩
  | .hbm, ⟨104, _⟩ => ⟨S1200000x1, .i32⟩
  | .hbm, ⟨105, _⟩ => ⟨S1200000x1, .f32⟩
  | .hbm, ⟨106, _⟩ => ⟨S1200000x1, .f32⟩
  | .hbm, ⟨107, _⟩ => ⟨S1200000x1, .f32⟩
  | .hbm, ⟨108, _⟩ => ⟨S_, .f32⟩
  | .hbm, ⟨109, _⟩ => ⟨S150000x1, .f32⟩
  | .hbm, ⟨110, _⟩ => ⟨S1200000x1, .i32⟩
  | .hbm, ⟨111, _⟩ => ⟨S150000x1, .f32⟩
  | .hbm, ⟨112, _⟩ => ⟨S150000, .f32⟩
  | .hbm, ⟨113, _⟩ => ⟨S150000x1, .f32⟩
  | .hbm, ⟨114, _⟩ => ⟨S150000x1, .f32⟩
  | .hbm, ⟨115, _⟩ => ⟨S150000x1, .f32⟩
  | .hbm, ⟨116, _⟩ => ⟨S1x1, .f32⟩
  | .hbm, ⟨117, _⟩ => ⟨S150000x1, .f32⟩
  | .hbm, ⟨118, _⟩ => ⟨S150000x1, .f32⟩
  | .hbm, ⟨119, _⟩ => ⟨S_, .f32⟩
  | .hbm, ⟨120, _⟩ => ⟨S150000x1, .f32⟩
  | .hbm, ⟨121, _⟩ => ⟨S150000x1, .f32⟩
  | .hbm, ⟨122, _⟩ => ⟨S10000x15, .f32⟩
  | .hbm, ⟨123, _⟩ => ⟨S10000x12, .f32⟩
  | .hbm, ⟨124, _⟩ => ⟨S120000, .f32⟩
  | _, _ => ⟨S150000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_11 : Ref sig .tc := ⟨.hbm, 78, rfl⟩
abbrev main_v57 : Ref sig .tc := ⟨.hbm, 79, rfl⟩
abbrev main_v58 : Ref sig .tc := ⟨.hbm, 80, rfl⟩
abbrev main_c_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_13 : Ref sig .tc := ⟨.hbm, 87, rfl⟩
abbrev main_v64 : Ref sig .tc := ⟨.hbm, 88, rfl⟩
abbrev main_v65 : Ref sig .tc := ⟨.hbm, 89, rfl⟩
abbrev main_c_14 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_15 : Ref sig .tc := ⟨.hbm, 97, rfl⟩
abbrev main_v72 : Ref sig .tc := ⟨.hbm, 98, rfl⟩
abbrev main_v73 : Ref sig .tc := ⟨.hbm, 99, rfl⟩
abbrev main_c_16 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_17 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_call1_cst : Ref sig .tc := ⟨.hbm, 119, rfl⟩
abbrev main_call1_v0 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S_S150000 : S_.BroadcastsInDim S150000 (![] : Fin 0 → Fin S150000.rank)
  bcast_S1200000_S1200000x1_0 : S1200000.BroadcastsInDim S1200000x1 (![0] : Fin 1 → Fin S1200000x1.rank)
  bcast_S1200000x1_S1200000x64_0_1 : S1200000x1.BroadcastsInDim S1200000x64 (![0, 1] : Fin 2 → Fin S1200000x64.rank)
  bcast_S_S150000x64 : S_.BroadcastsInDim S150000x64 (![] : Fin 0 → Fin S150000x64.rank)
  bcast_S150000_S150000x1_0 : S150000.BroadcastsInDim S150000x1 (![0] : Fin 1 → Fin S150000x1.rank)
  bcast_S150000x1_S150000x64_0_1 : S150000x1.BroadcastsInDim S150000x64 (![0, 1] : Fin 2 → Fin S150000x64.rank)
  bcast_S64_S1x64_1 : S64.BroadcastsInDim S1x64 (![1] : Fin 1 → Fin S1x64.rank)
  bcast_S1x64_S150000x64_0_1 : S1x64.BroadcastsInDim S150000x64 (![0, 1] : Fin 2 → Fin S150000x64.rank)
  bcast_S_S150000x1 : S_.BroadcastsInDim S150000x1 (![] : Fin 0 → Fin S150000x1.rank)
  bcast_S1_S1x1_1 : S1.BroadcastsInDim S1x1 (![1] : Fin 1 → Fin S1x1.rank)
  bcast_S1x1_S150000x1_0_1 : S1x1.BroadcastsInDim S150000x1 (![0, 1] : Fin 2 → Fin S150000x1.rank)
  shapeCasts_S150000x1_S10000x15 : S150000x1.ShapeCasts S10000x15
  slices_S10000x15_S10000x12_0_3 : S10000x15.Slices ![0, 3] S10000x12
  shapeCasts_S10000x12_S120000 : S10000x12.ShapeCasts S120000
  dot_S150000x64_S64x64_S150000x64_1_0_0_1_n_n_wf : DotDims.WF S150000x64 S64x64 S150000x64 [1] [0] [0] [1] [] []
  scatter_S150000_S1200000x1_S1200000_n_0_0_1_wf : ScatterDims.WF S150000 S1200000x1 S1200000 [] [0] [0] 1
  gather_S150000_S1200000x1_S1200000_n_0_n_n_0_1_1_wf : GatherDims.WF S150000 S1200000x1 S1200000 [] [0] [] [0] [] 1 ![1]
  gather_S150000x64_S1200000x1_S1200000x64_1_0_n_n_0_1_164_wf : GatherDims.WF S150000x64 S1200000x1 S1200000x64 [1] [0] [] [0] [] 1 ![1, 64]
  scatter_S150000x64_S1200000x1_S1200000x64_1_0_0_1_wf : ScatterDims.WF S150000x64 S1200000x1 S1200000x64 [1] [0] [0] 1
  dot_S150000x64_S64x1_S150000x1_1_0_0_1_n_n_wf : DotDims.WF S150000x64 S64x1 S150000x1 [1] [0] [0] [1] [] []
  gather_S150000x1_S1200000x1_S1200000x1_1_0_n_n_0_1_11_wf : GatherDims.WF S150000x1 S1200000x1 S1200000x1 [1] [0] [] [0] [] 1 ![1, 1]
  scatter_S150000x1_S1200000x1_S1200000x1_1_0_0_1_wf : ScatterDims.WF S150000x1 S1200000x1 S1200000x1 [1] [0] [0] 1

variable [Facts₀]

def dot_S150000x64_S64x64_S150000x64_1_0_0_1_n_n : DotDims S150000x64 S64x64 S150000x64 where
  lhsContracting := [1]
  rhsContracting := [0]
  lhsNonContracting := [0]
  rhsNonContracting := [1]
  lhsBatch := []
  rhsBatch := []
  wf := dot_S150000x64_S64x64_S150000x64_1_0_0_1_n_n_wf
def scatter_S150000_S1200000x1_S1200000_n_0_0_1 : ScatterDims S150000 S1200000x1 S1200000 where
  updateWindowDims := []
  insertedWindowDims := [0]
  scatterDimsToOperandDims := [0]
  indexVectorDim := 1
  wf := scatter_S150000_S1200000x1_S1200000_n_0_0_1_wf
def gather_S150000_S1200000x1_S1200000_n_0_n_n_0_1_1 : GatherDims S150000 S1200000x1 S1200000 where
  offsetDims := []
  collapsedSliceDims := [0]
  operandBatchingDims := []
  startIndicesBatchingDims := []
  startIndexMap := [0]
  indexVectorDim := 1
  sliceSizes := ![1]
  wf := gather_S150000_S1200000x1_S1200000_n_0_n_n_0_1_1_wf
def gather_S150000x64_S1200000x1_S1200000x64_1_0_n_n_0_1_164 : GatherDims S150000x64 S1200000x1 S1200000x64 where
  offsetDims := [1]
  collapsedSliceDims := [0]
  operandBatchingDims := []
  startIndicesBatchingDims := []
  startIndexMap := [0]
  indexVectorDim := 1
  sliceSizes := ![1, 64]
  wf := gather_S150000x64_S1200000x1_S1200000x64_1_0_n_n_0_1_164_wf
def scatter_S150000x64_S1200000x1_S1200000x64_1_0_0_1 : ScatterDims S150000x64 S1200000x1 S1200000x64 where
  updateWindowDims := [1]
  insertedWindowDims := [0]
  scatterDimsToOperandDims := [0]
  indexVectorDim := 1
  wf := scatter_S150000x64_S1200000x1_S1200000x64_1_0_0_1_wf
def dot_S150000x64_S64x1_S150000x1_1_0_0_1_n_n : DotDims S150000x64 S64x1 S150000x1 where
  lhsContracting := [1]
  rhsContracting := [0]
  lhsNonContracting := [0]
  rhsNonContracting := [1]
  lhsBatch := []
  rhsBatch := []
  wf := dot_S150000x64_S64x1_S150000x1_1_0_0_1_n_n_wf
def gather_S150000x1_S1200000x1_S1200000x1_1_0_n_n_0_1_11 : GatherDims S150000x1 S1200000x1 S1200000x1 where
  offsetDims := [1]
  collapsedSliceDims := [0]
  operandBatchingDims := []
  startIndicesBatchingDims := []
  startIndexMap := [0]
  indexVectorDim := 1
  sliceSizes := ![1, 1]
  wf := gather_S150000x1_S1200000x1_S1200000x1_1_0_n_n_0_1_11_wf
def scatter_S150000x1_S1200000x1_S1200000x1_1_0_0_1 : ScatterDims S150000x1 S1200000x1 S1200000x1 where
  updateWindowDims := [1]
  insertedWindowDims := [0]
  scatterDimsToOperandDims := [0]
  indexVectorDim := 1
  wf := scatter_S150000x1_S1200000x1_S1200000x1_1_0_0_1_wf

class Facts : Prop extends Facts₀ where

variable [Facts]
-- ==== Proof.KernelRun.lean ====
/-
  The idealized kernel's run with its result named: every weakly fair execution ends with the result array at the
  last boundary's contents of the fold through the host stretches and the four regions, and the arguments as
  launched. The fold is the one the frame runs over; here its last contents are read at the result as well as at
  the arguments.
-/
import proofs.«179537_j61512521613335_1_alg».proof.Proof.Gen.KernelIdeal.Frame

set_option maxRecDepth 16384

noncomputable section

namespace Cert.KernelIdeal.ResultRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with every buffer that outlives the regions at the
    fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

/-- The run with the result array named and the arguments as launched. -/
theorem run : θ_run defs (onTc (τ := τ) (main (F := F))) ⟨m, fun _ => 0, ρ⟩ (fun r => ∀ c : Dev nD,
      r.2.mem ((c.tc : Thread nD τ).loc main_v76) = W8 m ρ c (Proc.devRef .tc main_v76)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨h c _ (mem_uc main_v76 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)
    (run_all m ρ)

end Cert.KernelIdeal.ResultRun

end
-- ==== Proof.Spec.lean ====
/-
  The array functions the two programs share, at the ideal values (extended reals), index by index.

  A graph-convolution layer is  h = max((A + z · d²) + b, 0)  with  z = x · W  the projection,  A  the sum of the
  neighbours' scaled rows of z,  d² the squared inverse root degree of the row's node and  b  the bias of the column.
  Only the projection and the last, pointwise step are computed differently by the two programs (in row blocks
  against whole arrays); `prod` and `layerOut` state them once, over any extents. The zero of the maximum is kept
  as the word both programs print for it.
-/
import Idealize.ShloMosaic.PureOps.Ideal
import Idealize.ShloMosaic.Lib.ValueIdx
import Idealize.ShloMosaic.Lib.Pipeline.Value

noncomputable section

namespace Cert.GcnSpec

open Idealize.ShloMosaic Idealize.ShloMosaic.ValueIdx

/-- An [r, c] array of extended reals. -/
abbrev Mat (r c : Nat) := (⟨2, ![r, c]⟩ : Shape).Idx → EReal
/-- An [n] array of extended reals. -/
abbrev Vct (n : Nat) := (⟨1, ![n]⟩ : Shape).Idx → EReal

/-- The matrix product: entry (p, q) is Σ_k x(p, k) · w(k, q). -/
def prod {R K C : Nat} (x : Mat R K) (w : Mat K C) : Mat R C :=
  fun i => ∑ k : Fin K, x (ix2 (i 0 : Fin R) k) * w (ix2 k (i 1 : Fin C))

/-- A layer's last step, the per-node factor given as a column and the bias as a row: entry (p, q) is
    max((A(p, q) + z(p, q) · d(p, 0)) + b(0, q), 0). -/
def layerOut {R C : Nat} (A z : Mat R C) (d : Mat R 1) (b : Mat 1 C) : Mat R C :=
  fun i => max ((A i + z i * d (ix2 (i 0 : Fin R) (0 : Fin 1))) + b (ix2 (0 : Fin 1) (i 1 : Fin C)))
    (Ideal.ofBits .f32 0x00000000#32)

/-- A column [a, 1] repeated along the rows' entries to [a, b] reads, at (p, c), the column at row p. -/
theorem colRepeat_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.GcnSpec

end
-- ==== Proof.LibMatmulZero.lean ====
/-
  A matrix product into the zero accumulator, read at one entry, at the ideal values.

  For ANY dimension numbers of an [R, K] × [K, C] → [R, C] product that contract the left operand's axis 1 with the
  right operand's axis 0 (one contracted axis, of extent K) and carry the left's axis 0 and the right's axis 1 to the
  result, any operand formats and any precision attribute: at the ideal values, `matmul` with the all-zero f32
  accumulator has, at entry (p, q), the value
      Σ_{k < K} l(p, k) · r(k, q).
  The sum over the contraction shape's one-axis index type is re-indexed over `Fin K`, and the operand indices the
  dimension numbers read at result entry (p, q) and contracted position k are (p, k) and (k, q).

  The two hypotheses `hl0` and `hr1` say that the result's axis 0 is the left operand's axis 0 and the result's axis 1
  the right operand's axis 1; for a printed record `D` (no batch axes) each is four lines:
      fun i c => by
        unfold DotDims.lhsIdx
        rw [dif_neg (show ¬(0 : Fin _) ∈ D.lhsBatch by decide), dif_pos (show (0 : Fin _) ∈ D.lhsNonContracting by decide)]
        rfl
  (and the same with `rhsIdx`, `1`, `rhsBatch`, `rhsNonContracting`); `hlc`, `hrc`, `hr`, `hs` are `rfl`.
  Imports only the library.
-/
import Idealize.ShloMosaic.PureOps.Ideal.Laws
import Idealize.ShloMosaic.Lib.ValueIdx

noncomputable section

namespace Cert.LibMatmulZero

open Idealize.ShloMosaic Idealize.ShloMosaic.ValueIdx

/-- `matmul D prec l r 0 (p, q) = Σ_k l(p, k) · r(k, q)` at the ideal values, for two-dimensional operands with one
    contracted axis. -/
theorem matmul_zero_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    matmul D prec l r (constant ⟨2, ![R, C]⟩ .f32 0x00000000#32) (ix2 p q) = ∑ k : Fin K, l (ix2 p k) * r (ix2 k q) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

end Cert.LibMatmulZero

end
-- ==== Proof.ProjBlocks.lean ====
/-
  The first projection: the kernel computes z = x · W in 25 blocks of 6000 rows, each block the product of the
  block's rows of x with the whole of W; the blocks tile the rows, so the array it leaves is the whole product.
-/
import proofs.«179537_j61512521613335_1_alg».proof.Proof.Gen.KernelIdeal.Frame
import proofs.«179537_j61512521613335_1_alg».proof.Proof.Spec
import proofs.«179537_j61512521613335_1_alg».proof.Proof.LibMatmulZero
import Idealize.ShloMosaic.Lib.Pipeline.Value
import Idealize.ShloMosaic.Lib.ValueIdx
import Idealize.ShloMosaic.PureOps.Ideal.Laws

set_option maxRecDepth 16384

noncomputable section

namespace Cert.KernelIdeal.Proj

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.GcnSpec Cert.LibMatmulZero

variable (V : (c : Dev nD) → (b : Ref sig .tc) → Buf (Elt Ideal) ((c : Thread nD τ).loc b))

theorem hz : (![0, 0] : Fin 2 → Nat) = fun _ => 0 := funext fun a => by fin_cases a <;> rfl

/-- One block of the projection at an entry: the matrix product of the block's rows with W (the narrowing of
    both operands to bf16 changes no value, and the accumulator starts at zero). -/
theorem block_apply (x0 : Vec Ideal S6000x64 .f32) (x1 : Vec Ideal S64x64 .f32) (p : Fin 6000) (q : Fin 64) :
    k0_pay1 (F := Ideal) x0 x1 (ix2 p q) = ∑ k : Fin 64, x0 (ix2 p k) * x1 (ix2 k q) := by
  unfold k0_pay1
  exact matmul_zero_ix2 dot_S6000x64_S64x64_S6000x64_1_0_0_1_n_n rfl rfl rfl rfl
    (fun i c => by
      unfold DotDims.lhsIdx
      rw [dif_neg (show ¬(0 : Fin _) ∈ dot_S6000x64_S64x64_S6000x64_1_0_0_1_n_n.lhsBatch by decide),
        dif_pos (show (0 : Fin _) ∈ dot_S6000x64_S64x64_S6000x64_1_0_0_1_n_n.lhsNonContracting by decide)]
      rfl)
    (fun i c => by
      unfold DotDims.rhsIdx
      rw [dif_neg (show ¬(1 : Fin _) ∈ dot_S6000x64_S64x64_S6000x64_1_0_0_1_n_n.rhsBatch by decide),
        dif_pos (show (1 : Fin _) ∈ dot_S6000x64_S64x64_S6000x64_1_0_0_1_n_n.rhsNonContracting by decide)]
      rfl)
    none _ _ p q

/-- The printed index maps over the grid: block t of x and of z is the t-th block of rows, W is always whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the arrays the region finds. -/
theorem flushed0 (c : Dev nD) (t : Fin cfg0.N) :
    (dat0 (F := Ideal) V c).flushed 2 t
      = ((cfg0.win 2).blk t).view.read (Elt Ideal) (prod (R := 150000) (K := 64) (C := 64) (V c main_arg0) (V c main_arg2)) := by
  show (cfg0.win 2).cut (grid0.coords t) ((dat0 (F := Ideal) V c).after 2 t) = _
  rw [after0_2]
  unfold out0_2
  rw [View.canon_unit_zero hz]
  simp only [View.ld_unit_zero (S := S6000x64) hz, View.ld_unit_zero (S := S64x64) hz]
  obtain ⟨e00, e01, e10, e11, e20, e21⟩ := idx_facts t
  funext j
  show k0_pay1 (F := Ideal) (iblk0 V c 0 t) (iblk0 V c 1 t) j
    = prod (R := 150000) (K := 64) (C := 64) (V c main_arg0) (V c main_arg2) (((cfg0.win 2).blk t).view.emb j)
  obtain ⟨p, q, rfl⟩ : ∃ (p : Fin 6000) (q : Fin 64), j = ix2 p q := ⟨j 0, j 1, eq_ix2 j⟩
  refine (block_apply (iblk0 V c 0 t) (iblk0 V c 1 t) p q).trans ?_
  unfold prod
  refine Finset.sum_congr rfl fun k _ => ?_
  have hx : iblk0 V c 0 t (ix2 p k)
      = V c main_arg0 (ix2 ((((cfg0.win 2).blk t).view.emb (ix2 p q)) 0 : Fin 150000) k) := by
    show V c main_arg0 (((cfg0.win 0).blk t).view.emb (ix2 p k)) = _
    refine congrArg _ (funext fun a => Fin.ext ?_)
    match a with
    | ⟨0, _⟩ => show win0_0.index t (0 : Fin 2) * 6000 + 1 * p.val = win0_2.index t (0 : Fin 2) * 6000 + 1 * p.val; omega
    | ⟨1, _⟩ => show win0_0.index t (1 : Fin 2) * 64 + 1 * k.val = k.val; omega
  have hw : iblk0 V c 1 t (ix2 k q)
      = V c main_arg2 (ix2 k ((((cfg0.win 2).blk t).view.emb (ix2 p q)) 1 : Fin 64)) := by
    show V c main_arg2 (((cfg0.win 1).blk t).view.emb (ix2 k q)) = _
    refine congrArg _ (funext fun a => Fin.ext ?_)
    match a with
    | ⟨0, _⟩ => show win0_1.index t (0 : Fin 2) * 64 + 1 * k.val = k.val; omega
    | ⟨1, _⟩ => show win0_1.index t (1 : Fin 2) * 64 + 1 * q.val = win0_2.index t (1 : Fin 2) * 64 + 1 * q.val; omega
  rw [hx, hw]

/-- An entry of z is in point t's block iff its row is among the block's 6000 rows. -/
theorem mem_blk (t : Fin cfg0.N) (i : S150000x64.Idx) :
    i ∈ ((cfg0.win 2).blk t).view.set ↔ ∀ a : Fin 2, win0_2.index t a * S6000x64.size a ≤ (i a).val ∧ (i a).val < win0_2.index t a * S6000x64.size a + S6000x64.size a := by
  show i ∈ ((View.whole main_v13).slice (win0_2.rect t)).set ↔ _
  rw [View.set_slice_whole, Rect.mem_set_unit]
  exact Iff.rfl

/-- Every entry of z is in the block of the point its row falls in. -/
theorem cover (i : S150000x64.Idx) : ∃ t : Fin cfg0.N, (cfg0.win 2).flush t = true ∧ i ∈ ((cfg0.win 2).blk t).view.set := by
  have hi0 : (i 0).val < 150000 := (i 0).isLt
  have hi1 : (i 1).val < 64 := (i 1).isLt
  let t : Fin cfg0.N := ⟨(i 0).val / 6000, by show (i 0).val / 6000 < 25; omega⟩
  obtain ⟨-, -, -, -, e20, e21⟩ := idx_facts t
  have ht : t.val = (i 0).val / 6000 := rfl
  refine ⟨t, flush0_2 t, ?_⟩
  rw [mem_blk]
  intro a
  match a with
  | ⟨0, _⟩ => show win0_2.index t (0 : Fin 2) * 6000 ≤ (i 0).val ∧ (i 0).val < win0_2.index t (0 : Fin 2) * 6000 + 6000; omega
  | ⟨1, _⟩ => show win0_2.index t (1 : Fin 2) * 64 ≤ (i 1).val ∧ (i 1).val < win0_2.index t (1 : Fin 2) * 64 + 64; omega

/-- The array the first projection leaves is the product of the arrays it finds. -/
theorem array (c : Dev nD) :
    (dat0 (F := Ideal) V c).arrAt 2 cfg0.N = prod (R := 150000) (K := 64) (C := 64) (V c main_arg0) (V c main_arg2) :=
  (dat0 (F := Ideal) V c).arrAt_eq_of_cover 2 _ (fun t _ => flushed0 V c t) cover

end Cert.KernelIdeal.Proj

end
-- ==== Proof.ProjBlocks2.lean ====
/-
  The second projection: the kernel computes z' = h · W' (W' a single column of 64 weights) in 25 blocks of 6000
  rows, each block the product of the block's rows of h with the whole of W'; the blocks tile the rows, so the
  array it leaves is the whole product.
-/
import proofs.«179537_j61512521613335_1_alg».proof.Proof.Gen.KernelIdeal.Frame
import proofs.«179537_j61512521613335_1_alg».proof.Proof.Spec
import proofs.«179537_j61512521613335_1_alg».proof.Proof.LibMatmulZero
import Idealize.ShloMosaic.Lib.Pipeline.Value
import Idealize.ShloMosaic.Lib.ValueIdx
import Idealize.ShloMosaic.PureOps.Ideal.Laws

set_option maxRecDepth 16384

noncomputable section

namespace Cert.KernelIdeal.Proj2

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.GcnSpec Cert.LibMatmulZero

variable (V : (c : Dev nD) → (b : Ref sig .tc) → Buf (Elt Ideal) ((c : Thread nD τ).loc b))

theorem hz : (![0, 0] : Fin 2 → Nat) = fun _ => 0 := funext fun a => by fin_cases a <;> rfl

/-- One block of the projection at an entry: the matrix product of the block's rows of h with the column W' (the
    cast of the block to its own shape and the narrowing of both operands to bf16 change no value, and the
    accumulator starts at zero). -/
theorem block_apply (x0 : Vec Ideal S6000x64 .f32) (x1 : Vec Ideal S64x1 .f32) (p : Fin 6000) (q : Fin 1) :
    k2_pay1 (F := Ideal) x0 x1 (ix2 p q) = ∑ k : Fin 64, x0 (ix2 p k) * x1 (ix2 k q) := by
  unfold k2_pay1
  refine (matmul_zero_ix2 dot_S6000x64_S64x1_S6000x1_1_0_0_1_n_n rfl rfl rfl rfl
    (fun i c => by
      unfold DotDims.lhsIdx
      rw [dif_neg (show ¬(0 : Fin _) ∈ dot_S6000x64_S64x1_S6000x1_1_0_0_1_n_n.lhsBatch by decide),
        dif_pos (show (0 : Fin _) ∈ dot_S6000x64_S64x1_S6000x1_1_0_0_1_n_n.lhsNonContracting by decide)]
      rfl)
    (fun i c => by
      unfold DotDims.rhsIdx
      rw [dif_neg (show ¬(1 : Fin _) ∈ dot_S6000x64_S64x1_S6000x1_1_0_0_1_n_n.rhsBatch by decide),
        dif_pos (show (1 : Fin _) ∈ dot_S6000x64_S64x1_S6000x1_1_0_0_1_n_n.rhsNonContracting by decide)]
      rfl)
    none _ _ p q).trans ?_
  refine Finset.sum_congr rfl fun k _ => ?_
  show shapeCast S6000x64 x0 shapeCasts_S6000x64_S6000x64 (ix2 p k) * x1 (ix2 k q) = _
  rw [shapeCast_self]

/-- The printed index maps over the grid: block t of h and of z' is the t-th block of rows, W' is always whole. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the product of the arrays the region finds. -/
theorem flushed2 (c : Dev nD) (t : Fin cfg2.N) :
    (dat2 (F := Ideal) V c).flushed 2 t
      = ((cfg2.win 2).blk t).view.read (Elt Ideal) (prod (R := 150000) (K := 64) (C := 1) (V c main_v43) (V c main_arg4)) := by
  show (cfg2.win 2).cut (grid2.coords t) ((dat2 (F := Ideal) V c).after 2 t) = _
  rw [after2_2]
  unfold out2_2
  rw [View.canon_unit_zero hz]
  simp only [View.ld_unit_zero (S := S6000x64) hz, View.ld_unit_zero (S := S64x1) hz]
  obtain ⟨e00, e01, e10, e11, e20, e21⟩ := idx_facts t
  funext j
  show k2_pay1 (F := Ideal) (iblk2 V c 0 t) (iblk2 V c 1 t) j
    = prod (R := 150000) (K := 64) (C := 1) (V c main_v43) (V c main_arg4) (((cfg2.win 2).blk t).view.emb j)
  obtain ⟨p, q, rfl⟩ : ∃ (p : Fin 6000) (q : Fin 1), j = ix2 p q := ⟨j 0, j 1, eq_ix2 j⟩
  refine (block_apply (iblk2 V c 0 t) (iblk2 V c 1 t) p q).trans ?_
  unfold prod
  refine Finset.sum_congr rfl fun k _ => ?_
  have hx : iblk2 V c 0 t (ix2 p k)
      = V c main_v43 (ix2 ((((cfg2.win 2).blk t).view.emb (ix2 p q)) 0 : Fin 150000) k) := by
    show V c main_v43 (((cfg2.win 0).blk t).view.emb (ix2 p k)) = _
    refine congrArg _ (funext fun a => Fin.ext ?_)
    match a with
    | ⟨0, _⟩ => show win2_0.index t (0 : Fin 2) * 6000 + 1 * p.val = win2_2.index t (0 : Fin 2) * 6000 + 1 * p.val; omega
    | ⟨1, _⟩ => show win2_0.index t (1 : Fin 2) * 64 + 1 * k.val = k.val; omega
  have hw : iblk2 V c 1 t (ix2 k q)
      = V c main_arg4 (ix2 k ((((cfg2.win 2).blk t).view.emb (ix2 p q)) 1 : Fin 1)) := by
    show V c main_arg4 (((cfg2.win 1).blk t).view.emb (ix2 k q)) = _
    refine congrArg _ (funext fun a => Fin.ext ?_)
    match a with
    | ⟨0, _⟩ => show win2_1.index t (0 : Fin 2) * 64 + 1 * k.val = k.val; omega
    | ⟨1, _⟩ => show win2_1.index t (1 : Fin 2) * 1 + 1 * q.val = win2_2.index t (1 : Fin 2) * 1 + 1 * q.val; omega
  rw [hx, hw]

/-- An entry of z' is in point t's block iff its row is among the block's 6000 rows. -/
theorem mem_blk (t : Fin cfg2.N) (i : S150000x1.Idx) :
    i ∈ ((cfg2.win 2).blk t).view.set ↔ ∀ a : Fin 2, win2_2.index t a * S6000x1.size a ≤ (i a).val ∧ (i a).val < win2_2.index t a * S6000x1.size a + S6000x1.size a := by
  show i ∈ ((View.whole main_v44).slice (win2_2.rect t)).set ↔ _
  rw [View.set_slice_whole, Rect.mem_set_unit]
  exact Iff.rfl

/-- Every entry of z' is in the block of the point its row falls in. -/
theorem cover (i : S150000x1.Idx) : ∃ t : Fin cfg2.N, (cfg2.win 2).flush t = true ∧ i ∈ ((cfg2.win 2).blk t).view.set := by
  have hi0 : (i 0).val < 150000 := (i 0).isLt
  have hi1 : (i 1).val < 1 := (i 1).isLt
  let t : Fin cfg2.N := ⟨(i 0).val / 6000, by show (i 0).val / 6000 < 25; omega⟩
  obtain ⟨-, -, -, -, e20, e21⟩ := idx_facts t
  have ht : t.val = (i 0).val / 6000 := rfl
  refine ⟨t, flush2_2 t, ?_⟩
  rw [mem_blk]
  intro a
  match a with
  | ⟨0, _⟩ => show win2_2.index t (0 : Fin 2) * 6000 ≤ (i 0).val ∧ (i 0).val < win2_2.index t (0 : Fin 2) * 6000 + 6000; omega
  | ⟨1, _⟩ => show win2_2.index t (1 : Fin 2) * 1 ≤ (i 1).val ∧ (i 1).val < win2_2.index t (1 : Fin 2) * 1 + 1; omega

/-- The array the second projection leaves is the product of the arrays it finds. -/
theorem array (c : Dev nD) :
    (dat2 (F := Ideal) V c).arrAt 2 cfg2.N = prod (R := 150000) (K := 64) (C := 1) (V c main_v43) (V c main_arg4) :=
  (dat2 (F := Ideal) V c).arrAt_eq_of_cover 2 _ (fun t _ => flushed2 V c t) cover

end Cert.KernelIdeal.Proj2

end
-- ==== Proof.FinBlocks.lean ====
/-
  The first layer's last step: the kernel computes h = max((A + z · d²) + b, 0) in 25 blocks of 6000 rows, from the
  same rows of A, z and the column d² and from the whole bias row; the blocks tile the rows, so the array it leaves
  is the whole-array function of the arrays it finds.
-/
import proofs.«179537_j61512521613335_1_alg».proof.Proof.Gen.KernelIdeal.Frame
import proofs.«179537_j61512521613335_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Fin1

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.GcnSpec

variable (V : (c : Dev nD) → (b : Ref sig .tc) → Buf (Elt Ideal) ((c : Thread nD τ).loc b))

theorem hz : (![0, 0] : Fin 2 → Nat) = fun _ => 0 := funext fun a => by fin_cases a <;> rfl

/-- One block of the step at an entry (p, q): the casts of a block to its own shape change nothing, the column is
    repeated along its row and the bias row down the rows. -/
theorem block_apply (x0 x1 : Vec Ideal S6000x64 .f32) (x2 : Vec Ideal S6000x1 .f32) (x3 : Vec Ideal S1x64 .f32)
    (p : Fin 6000) (q : Fin 64) :
    k1_pay1 (F := Ideal) x0 x1 x2 x3 (ix2 p q)
      = max ((x0 (ix2 p q) + x1 (ix2 p q) * x2 (ix2 p (0 : Fin 1))) + x3 (ix2 (0 : Fin 1) q))
          (Ideal.ofBits .f32 0x00000000#32) := by
  unfold k1_pay1
  simp only [shapeCast_self]
  show max ((x0 (ix2 p q) + x1 (ix2 p q) * broadcastTo S6000x64 x2 broadcasts_S6000x1_S6000x64 (ix2 p q))
      + broadcastTo S6000x64 x3 broadcasts_S1x64_S6000x64 (ix2 p q)) (Ideal.ofBits .f32 0x00000000#32) = _
  rw [colRepeat_apply x2 broadcasts_S6000x1_S6000x64 p q, broadcastTo_1b_ab_apply x3 broadcasts_S1x64_S6000x64 p q]

/-- The printed index maps over the grid: block t of A, z, d² and h is the t-th block of rows, the bias row is
    always whole. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point t writes back is block t of the step applied to the arrays the region finds. -/
theorem flushed1 (c : Dev nD) (t : Fin cfg1.N) :
    (dat1 (F := Ideal) V c).flushed 4 t
      = ((cfg1.win 4).blk t).view.read (Elt Ideal)
          (layerOut (R := 150000) (C := 64) (V c main_v41) (V c main_v13) (V c main_v12) (V c main_v42)) := by
  show (cfg1.win 4).cut (grid1.coords t) ((dat1 (F := Ideal) V c).after 4 t) = _
  rw [after1_4]
  unfold out1_4
  rw [View.canon_unit_zero hz]
  simp only [View.ld_unit_zero (S := S6000x64) hz, View.ld_unit_zero (S := S6000x1) hz, View.ld_unit_zero (S := S1x64) hz]
  obtain ⟨e00, e01, e10, e11, e20, e21, e30, e31, e40, e41⟩ := idx_facts t
  funext j
  show k1_pay1 (F := Ideal) (iblk1 V c 0 t) (iblk1 V c 1 t) (iblk1 V c 2 t) (iblk1 V c 3 t) j
    = layerOut (R := 150000) (C := 64) (V c main_v41) (V c main_v13) (V c main_v12) (V c main_v42)
        (((cfg1.win 4).blk t).view.emb j)
  obtain ⟨p, q, rfl⟩ : ∃ (p : Fin 6000) (q : Fin 64), j = ix2 p q := ⟨j 0, j 1, eq_ix2 j⟩
  refine (block_apply (iblk1 V c 0 t) (iblk1 V c 1 t) (iblk1 V c 2 t) (iblk1 V c 3 t) p q).trans ?_
  unfold layerOut
  have h0 : iblk1 V c 0 t (ix2 p q) = V c main_v41 (((cfg1.win 4).blk t).view.emb (ix2 p q)) := by
    show V c main_v41 (((cfg1.win 0).blk t).view.emb (ix2 p q)) = _
    refine congrArg _ (funext fun a => Fin.ext ?_)
    match a with
    | ⟨0, _⟩ => show win1_0.index t (0 : Fin 2) * 6000 + 1 * p.val = win1_4.index t (0 : Fin 2) * 6000 + 1 * p.val; omega
    | ⟨1, _⟩ => show win1_0.index t (1 : Fin 2) * 64 + 1 * q.val = win1_4.index t (1 : Fin 2) * 64 + 1 * q.val; omega
  have h1 : iblk1 V c 1 t (ix2 p q) = V c main_v13 (((cfg1.win 4).blk t).view.emb (ix2 p q)) := by
    show V c main_v13 (((cfg1.win 1).blk t).view.emb (ix2 p q)) = _
    refine congrArg _ (funext fun a => Fin.ext ?_)
    match a with
    | ⟨0, _⟩ => show win1_1.index t (0 : Fin 2) * 6000 + 1 * p.val = win1_4.index t (0 : Fin 2) * 6000 + 1 * p.val; omega
    | ⟨1, _⟩ => show win1_1.index t (1 : Fin 2) * 64 + 1 * q.val = win1_4.index t (1 : Fin 2) * 64 + 1 * q.val; omega
  have h2 : iblk1 V c 2 t (ix2 p (0 : Fin 1))
      = V c main_v12 (ix2 ((((cfg1.win 4).blk t).view.emb (ix2 p q)) 0 : Fin 150000) (0 : Fin 1)) := by
    show V c main_v12 (((cfg1.win 2).blk t).view.emb (ix2 p (0 : Fin 1))) = _
    refine congrArg _ (funext fun a => Fin.ext ?_)
    match a with
    | ⟨0, _⟩ => show win1_2.index t (0 : Fin 2) * 6000 + 1 * p.val = win1_4.index t (0 : Fin 2) * 6000 + 1 * p.val; omega
    | ⟨1, _⟩ => show win1_2.index t (1 : Fin 2) * 1 + 1 * 0 = 0; omega
  have h3 : iblk1 V c 3 t (ix2 (0 : Fin 1) q)
      = V c main_v42 (ix2 (0 : Fin 1) ((((cfg1.win 4).blk t).view.emb (ix2 p q)) 1 : Fin 64)) := by
    show V c main_v42 (((cfg1.win 3).blk t).view.emb (ix2 (0 : Fin 1) q)) = _
    refine congrArg _ (funext fun a => Fin.ext ?_)
    match a with
    | ⟨0, _⟩ => show win1_3.index t (0 : Fin 2) * 1 + 1 * 0 = 0; omega
    | ⟨1, _⟩ => show win1_3.index t (1 : Fin 2) * 64 + 1 * q.val = win1_4.index t (1 : Fin 2) * 64 + 1 * q.val; omega
  rw [h0, h1, h2, h3]

/-- An entry of h is in point t's block iff its row is among the block's 6000 rows. -/
theorem mem_blk (t : Fin cfg1.N) (i : S150000x64.Idx) :
    i ∈ ((cfg1.win 4).blk t).view.set ↔ ∀ a : Fin 2, win1_4.index t a * S6000x64.size a ≤ (i a).val ∧ (i a).val < win1_4.index t a * S6000x64.size a + S6000x64.size a := by
  show i ∈ ((View.whole main_v43).slice (win1_4.rect t)).set ↔ _
  rw [View.set_slice_whole, Rect.mem_set_unit]
  exact Iff.rfl

/-- Every entry of h is in the block of the point its row falls in. -/
theorem cover (i : S150000x64.Idx) : ∃ t : Fin cfg1.N, (cfg1.win 4).flush t = true ∧ i ∈ ((cfg1.win 4).blk t).view.set := by
  have hi0 : (i 0).val < 150000 := (i 0).isLt
  have hi1 : (i 1).val < 64 := (i 1).isLt
  let t : Fin cfg1.N := ⟨(i 0).val / 6000, by show (i 0).val / 6000 < 25; omega⟩
  obtain ⟨-, -, -, -, -, -, -, -, e40, e41⟩ := idx_facts t
  have ht : t.val = (i 0).val / 6000 := rfl
  refine ⟨t, flush1_4 t, ?_⟩
  rw [mem_blk]
  intro a
  match a with
  | ⟨0, _⟩ => show win1_4.index t (0 : Fin 2) * 6000 ≤ (i 0).val ∧ (i 0).val < win1_4.index t (0 : Fin 2) * 6000 + 6000; omega
  | ⟨1, _⟩ => show win1_4.index t (1 : Fin 2) * 64 ≤ (i 1).val ∧ (i 1).val < win1_4.index t (1 : Fin 2) * 64 + 64; omega

/-- The array the step leaves is its whole-array function of the arrays it finds. -/
theorem array (c : Dev nD) :
    (dat1 (F := Ideal) V c).arrAt 4 cfg1.N
      = layerOut (R := 150000) (C := 64) (V c main_v41) (V c main_v13) (V c main_v12) (V c main_v42) :=
  (dat1 (F := Ideal) V c).arrAt_eq_of_cover 4 _ (fun t _ => flushed1 V c t) cover

end Cert.KernelIdeal.Fin1

end
-- ==== Proof.FinBlocks2.lean ====
/-
  The second layer's last step: every array is one column wide. The kernel computes h' = max((A' + z' · d²) + b', 0)
  in 25 blocks of 6000 rows, from the same rows of A', z' and the column d² and from the one bias b'; the blocks
  tile the rows, so the array it leaves is the whole-array function of the arrays it finds.
-/
import proofs.«179537_j61512521613335_1_alg».proof.Proof.Gen.KernelIdeal.Frame
import proofs.«179537_j61512521613335_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Fin2

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.GcnSpec

variable (V : (c : Dev nD) → (b : Ref sig .tc) → Buf (Elt Ideal) ((c : Thread nD τ).loc b))

theorem hz : (![0, 0] : Fin 2 → Nat) = fun _ => 0 := funext fun a => by fin_cases a <;> rfl

/-- One block of the step at an entry (p, q), q the one column: the casts of a block to its own shape change
    nothing, the column d² is read at the entry itself and the one bias is repeated down the rows. -/
theorem block_apply (x0 x1 x2 : Vec Ideal S6000x1 .f32) (x3 : Vec Ideal S1x1 .f32) (p : Fin 6000) (q : Fin 1) :
    k3_pay1 (F := Ideal) x0 x1 x2 x3 (ix2 p q)
      = max ((x0 (ix2 p q) + x1 (ix2 p q) * x2 (ix2 p (0 : Fin 1))) + x3 (ix2 (0 : Fin 1) q))
          (Ideal.ofBits .f32 0x00000000#32) := by
  obtain rfl : q = 0 := Subsingleton.elim _ _
  unfold k3_pay1
  simp only [shapeCast_self]
  show max ((x0 (ix2 p (0 : Fin 1)) + x1 (ix2 p (0 : Fin 1)) * x2 (ix2 p (0 : Fin 1)))
      + broadcastTo S6000x1 x3 broadcasts_S1x1_S6000x1 (ix2 p (0 : Fin 1))) (Ideal.ofBits .f32 0x00000000#32) = _
  rw [broadcastTo_1b_ab_apply x3 broadcasts_S1x1_S6000x1 p (0 : Fin 1)]

/-- The printed index maps over the grid: block t of A', z', d² and h' is the t-th block of rows, the bias is
    always whole. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What point t writes back is block t of the step applied to the arrays the region finds. -/
theorem flushed3 (c : Dev nD) (t : Fin cfg3.N) :
    (dat3 (F := Ideal) V c).flushed 4 t
      = ((cfg3.win 4).blk t).view.read (Elt Ideal)
          (layerOut (R := 150000) (C := 1) (V c main_v71) (V c main_v44) (V c main_v12) (V c main_v72)) := by
  show (cfg3.win 4).cut (grid3.coords t) ((dat3 (F := Ideal) V c).after 4 t) = _
  rw [after3_4]
  unfold out3_4
  rw [View.canon_unit_zero hz]
  simp only [View.ld_unit_zero (S := S6000x1) hz, View.ld_unit_zero (S := S1x1) hz]
  obtain ⟨e00, e01, e10, e11, e20, e21, e30, e31, e40, e41⟩ := idx_facts t
  funext j
  show k3_pay1 (F := Ideal) (iblk3 V c 0 t) (iblk3 V c 1 t) (iblk3 V c 2 t) (iblk3 V c 3 t) j
    = layerOut (R := 150000) (C := 1) (V c main_v71) (V c main_v44) (V c main_v12) (V c main_v72)
        (((cfg3.win 4).blk t).view.emb j)
  obtain ⟨p, q, rfl⟩ : ∃ (p : Fin 6000) (q : Fin 1), j = ix2 p q := ⟨j 0, j 1, eq_ix2 j⟩
  refine (block_apply (iblk3 V c 0 t) (iblk3 V c 1 t) (iblk3 V c 2 t) (iblk3 V c 3 t) p q).trans ?_
  unfold layerOut
  have h0 : iblk3 V c 0 t (ix2 p q) = V c main_v71 (((cfg3.win 4).blk t).view.emb (ix2 p q)) := by
    show V c main_v71 (((cfg3.win 0).blk t).view.emb (ix2 p q)) = _
    refine congrArg _ (funext fun a => Fin.ext ?_)
    match a with
    | ⟨0, _⟩ => show win3_0.index t (0 : Fin 2) * 6000 + 1 * p.val = win3_4.index t (0 : Fin 2) * 6000 + 1 * p.val; omega
    | ⟨1, _⟩ => show win3_0.index t (1 : Fin 2) * 1 + 1 * q.val = win3_4.index t (1 : Fin 2) * 1 + 1 * q.val; omega
  have h1 : iblk3 V c 1 t (ix2 p q) = V c main_v44 (((cfg3.win 4).blk t).view.emb (ix2 p q)) := by
    show V c main_v44 (((cfg3.win 1).blk t).view.emb (ix2 p q)) = _
    refine congrArg _ (funext fun a => Fin.ext ?_)
    match a with
    | ⟨0, _⟩ => show win3_1.index t (0 : Fin 2) * 6000 + 1 * p.val = win3_4.index t (0 : Fin 2) * 6000 + 1 * p.val; omega
    | ⟨1, _⟩ => show win3_1.index t (1 : Fin 2) * 1 + 1 * q.val = win3_4.index t (1 : Fin 2) * 1 + 1 * q.val; omega
  have h2 : iblk3 V c 2 t (ix2 p (0 : Fin 1))
      = V c main_v12 (ix2 ((((cfg3.win 4).blk t).view.emb (ix2 p q)) 0 : Fin 150000) (0 : Fin 1)) := by
    show V c main_v12 (((cfg3.win 2).blk t).view.emb (ix2 p (0 : Fin 1))) = _
    refine congrArg _ (funext fun a => Fin.ext ?_)
    match a with
    | ⟨0, _⟩ => show win3_2.index t (0 : Fin 2) * 6000 + 1 * p.val = win3_4.index t (0 : Fin 2) * 6000 + 1 * p.val; omega
    | ⟨1, _⟩ => show win3_2.index t (1 : Fin 2) * 1 + 1 * 0 = 0; omega
  have h3 : iblk3 V c 3 t (ix2 (0 : Fin 1) q)
      = V c main_v72 (ix2 (0 : Fin 1) ((((cfg3.win 4).blk t).view.emb (ix2 p q)) 1 : Fin 1)) := by
    show V c main_v72 (((cfg3.win 3).blk t).view.emb (ix2 (0 : Fin 1) q)) = _
    refine congrArg _ (funext fun a => Fin.ext ?_)
    match a with
    | ⟨0, _⟩ => show win3_3.index t (0 : Fin 2) * 1 + 1 * 0 = 0; omega
    | ⟨1, _⟩ => show win3_3.index t (1 : Fin 2) * 1 + 1 * q.val = win3_4.index t (1 : Fin 2) * 1 + 1 * q.val; omega
  rw [h0, h1, h2, h3]

/-- An entry of h' is in point t's block iff its row is among the block's 6000 rows. -/
theorem mem_blk (t : Fin cfg3.N) (i : S150000x1.Idx) :
    i ∈ ((cfg3.win 4).blk t).view.set ↔ ∀ a : Fin 2, win3_4.index t a * S6000x1.size a ≤ (i a).val ∧ (i a).val < win3_4.index t a * S6000x1.size a + S6000x1.size a := by
  show i ∈ ((View.whole main_v73).slice (win3_4.rect t)).set ↔ _
  rw [View.set_slice_whole, Rect.mem_set_unit]
  exact Iff.rfl

/-- Every entry of h' is in the block of the point its row falls in. -/
theorem cover (i : S150000x1.Idx) : ∃ t : Fin cfg3.N, (cfg3.win 4).flush t = true ∧ i ∈ ((cfg3.win 4).blk t).view.set := by
  have hi0 : (i 0).val < 150000 := (i 0).isLt
  have hi1 : (i 1).val < 1 := (i 1).isLt
  let t : Fin cfg3.N := ⟨(i 0).val / 6000, by show (i 0).val / 6000 < 25; omega⟩
  obtain ⟨-, -, -, -, -, -, -, -, e40, e41⟩ := idx_facts t
  have ht : t.val = (i 0).val / 6000 := rfl
  refine ⟨t, flush3_4 t, ?_⟩
  rw [mem_blk]
  intro a
  match a with
  | ⟨0, _⟩ => show win3_4.index t (0 : Fin 2) * 6000 ≤ (i 0).val ∧ (i 0).val < win3_4.index t (0 : Fin 2) * 6000 + 6000; omega
  | ⟨1, _⟩ => show win3_4.index t (1 : Fin 2) * 1 ≤ (i 1).val ∧ (i 1).val < win3_4.index t (1 : Fin 2) * 1 + 1; omega

/-- The array the step leaves is its whole-array function of the arrays it finds. -/
theorem array (c : Dev nD) :
    (dat3 (F := Ideal) V c).arrAt 4 cfg3.N
      = layerOut (R := 150000) (C := 1) (V c main_v71) (V c main_v44) (V c main_v12) (V c main_v72) :=
  (dat3 (F := Ideal) V c).arrAt_eq_of_cover 4 _ (fun t _ => flushed3 V c t) cover

end Cert.KernelIdeal.Fin2

end
-- ==== Proof.EdgeOps.lean ====
/-
  The part of the network both programs compute with the same host operations, named once, and the whole network
  as one function of the six arguments.

  From the edge list e (row 0 the sources, row 1 the targets):  deg = 1 + the number of edges into a node,
  dinv = deg^(-1/2);  an edge's weight is dinv(source) · dinv(target), the node of an endpoint read with a negative
  index shifted by the number of nodes;  the neighbour sum of an array z adds into row target(e) the row source(e) of
  z times the edge's weight.  A layer is  max((neighbour sum of z + z · dinv²) + b, 0)  with  z = x · W.  The result is
  the second layer's column regrouped by 15 with the first three of each 15 dropped.
-/
import proofs.«179537_j61512521613335_1_alg».proof.KernelIdeal
import proofs.«179537_j61512521613335_1_alg».proof.Proof.Gen.KernelIdeal
import proofs.«179537_j61512521613335_1_alg».proof.Proof.Spec

noncomputable section

namespace Cert.KernelIdeal.Edge

open Idealize.ShloMosaic Cert.KernelIdeal Cert.KernelIdeal.Facts₀ Cert.KernelIdeal.Facts Cert.GcnSpec

/-- An array of the given shape and element type, at the ideal values. -/
abbrev Arr (s : Shape) (e : EltTy) := (⟨s, e⟩ : BufTy).Contents (Elt Ideal)

/-- The edges' sources: row 0 of the edge list. -/
def src (e : Arr S2x1200000 .i32) : Arr S1200000 .i32 :=
  shapeCast _ (extractStridedSlice S1x1200000 ![0, 0] e slices_S2x1200000_S1x1200000_0_0) shapeCasts_S1x1200000_S1200000

/-- The edges' targets: row 1 of the edge list. -/
def dst (e : Arr S2x1200000 .i32) : Arr S1200000 .i32 :=
  shapeCast _ (extractStridedSlice S1x1200000 ![1, 0] e slices_S2x1200000_S1x1200000_1_0) shapeCasts_S1x1200000_S1200000

/-- The inverse root of a node's degree, the degree counting the edges into it and itself. -/
def dinv (t : Arr S1200000 .i32) : Arr S150000 .f32 :=
  Host.rsqrt (F := Ideal) (addf (F := Ideal) (φ := .f32)
    (Host.scatterAdd (F := Ideal) scatter_S150000_S1200000x1_S1200000_n_0_0_1
      (broadcastInDim S150000 ![] bcast_S_S150000 (constant (F := Ideal) S_ .f32 0x00000000#32))
      (broadcastInDim S1200000x1 ![0] bcast_S1200000_S1200000x1_0 t)
      (broadcastInDim S1200000 ![] bcast_S_S1200000 (constant (F := Ideal) S_ .f32 0x3F800000#32)))
    (broadcastInDim S150000 ![] bcast_S_S150000 (constant (F := Ideal) S_ .f32 0x3F800000#32)))

/-- dinv² as a column, one entry per node. -/
def dinvSq (d : Arr S150000 .f32) : Arr S150000x1 .f32 :=
  shapeCast _ (mulf (F := Ideal) (φ := .f32) d d) shapeCasts_S150000_S150000x1

/-- Node indices as a column of start indices, a negative index shifted by the number of nodes. -/
def startCol (x : Arr S1200000 .i32) : Arr S1200000x1 .i32 :=
  broadcastInDim S1200000x1 ![0] bcast_S1200000_S1200000x1_0
    (select (cmpi .slt x (broadcastInDim S1200000 ![] bcast_S_S1200000 (constantI S_ 32 0#32)))
      (addi x (broadcastInDim S1200000 ![] bcast_S_S1200000 (constantI S_ 32 150000#32))) x)

/-- An edge's weight: dinv at its source times dinv at its target. -/
def weight (d : Arr S150000 .f32) (s t : Arr S1200000 .i32) : Arr S1200000 .f32 :=
  mulf (F := Ideal) (φ := .f32) (Host.gather gather_S150000_S1200000x1_S1200000_n_0_n_n_0_1_1 d (startCol s))
    (Host.gather gather_S150000_S1200000x1_S1200000_n_0_n_n_0_1_1 d (startCol t))

/-- The neighbour sum of a 64-wide array. -/
def nbrSum64 (z : Arr S150000x64 .f32) (d : Arr S150000 .f32) (s t : Arr S1200000 .i32) : Arr S150000x64 .f32 :=
  Host.scatterAdd (F := Ideal) scatter_S150000x64_S1200000x1_S1200000x64_1_0_0_1
    (broadcastInDim S150000x64 ![] bcast_S_S150000x64 (constant (F := Ideal) S_ .f32 0x00000000#32))
    (broadcastInDim S1200000x1 ![0] bcast_S1200000_S1200000x1_0 t)
    (mulf (F := Ideal) (φ := .f32) (Host.gather gather_S150000x64_S1200000x1_S1200000x64_1_0_n_n_0_1_164 z (startCol s))
      (broadcastInDim S1200000x64 ![0, 1] bcast_S1200000x1_S1200000x64_0_1
        (broadcastInDim S1200000x1 ![0] bcast_S1200000_S1200000x1_0 (weight d s t))))

/-- The neighbour sum of a one-column array. -/
def nbrSum1 (z : Arr S150000x1 .f32) (d : Arr S150000 .f32) (s t : Arr S1200000 .i32) : Arr S150000x1 .f32 :=
  Host.scatterAdd (F := Ideal) scatter_S150000x1_S1200000x1_S1200000x1_1_0_0_1
    (broadcastInDim S150000x1 ![] bcast_S_S150000x1 (constant (F := Ideal) S_ .f32 0x00000000#32))
    (broadcastInDim S1200000x1 ![0] bcast_S1200000_S1200000x1_0 t)
    (mulf (F := Ideal) (φ := .f32) (Host.gather gather_S150000x1_S1200000x1_S1200000x1_1_0_n_n_0_1_11 z (startCol s))
      (broadcastInDim S1200000x1 ![0] bcast_S1200000_S1200000x1_0 (weight d s t)))

/-- The result's layout: the column regrouped in rows of 15, columns 3 to 14 kept, flattened. -/
def regroup (h : Arr S150000x1 .f32) : Arr S120000 .f32 :=
  shapeCast _ (extractStridedSlice S10000x12 ![0, 3] (shapeCast _ h shapeCasts_S150000x1_S10000x15) slices_S10000x15_S10000x12_0_3)
    shapeCasts_S10000x12_S120000

/-- The first layer's output from its projection z. -/
def layer1 (z : Arr S150000x64 .f32) (e : Arr S2x1200000 .i32) (b : Arr S64 .f32) : Arr S150000x64 .f32 :=
  layerOut (R := 150000) (C := 64) (nbrSum64 z (dinv (dst e)) (src e) (dst e)) z (dinvSq (dinv (dst e)))
    (shapeCast _ b shapeCasts_S64_S1x64)

/-- The second layer's output from its projection z'. -/
def layer2 (z : Arr S150000x1 .f32) (e : Arr S2x1200000 .i32) (b : Arr S1 .f32) : Arr S150000x1 .f32 :=
  layerOut (R := 150000) (C := 1) (nbrSum1 z (dinv (dst e)) (src e) (dst e)) z (dinvSq (dinv (dst e)))
    (shapeCast _ b shapeCasts_S1_S1x1)

/-- The whole network as one function of the six arguments. -/
def gcn (x : Arr S150000x64 .f32) (e : Arr S2x1200000 .i32) (w1 : Arr S64x64 .f32) (b1 : Arr S64 .f32)
    (w2 : Arr S64x1 .f32) (b2 : Arr S1 .f32) : Arr S120000 .f32 :=
  regroup (layer2 (prod (R := 150000) (K := 64) (C := 1)
    (layer1 (prod (R := 150000) (K := 64) (C := 64) x w1) e b1) w2) e b2)

end Cert.KernelIdeal.Edge

end
-- ==== Proof.KernelFold.lean ====
/-
  The idealized kernel's result as a function of its arguments: the contents of the buffers at each boundary of
  @main — after the first host stretch, after each region, after each later stretch — read back to the launch
  contents. A host stretch computes the shared edge operations of what it finds; a region leaves the product, or the
  layer's last step, of the arrays it finds; a buffer a segment does not write keeps its contents. Composed, the
  result array ends at `gcn` of the six arguments.
-/
import proofs.«179537_j61512521613335_1_alg».proof.Proof.Gen.KernelIdeal.Frame
import proofs.«179537_j61512521613335_1_alg».proof.Proof.ProjBlocks
import proofs.«179537_j61512521613335_1_alg».proof.Proof.ProjBlocks2
import proofs.«179537_j61512521613335_1_alg».proof.Proof.FinBlocks
import proofs.«179537_j61512521613335_1_alg».proof.Proof.FinBlocks2
import proofs.«179537_j61512521613335_1_alg».proof.Proof.EdgeOps
import Idealize.ShloMosaic.Lib.StableHlo.Run

set_option maxRecDepth 16384

noncomputable section

namespace Cert.KernelIdeal.Fold

open Idealize.ShloMosaic Idealize.ShloMosaic.TcCoe Idealize.ShloMosaic.StableHlo
open Idealize.SL Idealize.SL.Sem
open Cert.KernelIdeal Cert.KernelIdeal.Facts₀ Cert.KernelIdeal.Facts Cert.KernelIdeal.Gen Cert.KernelIdeal.Edge Cert.GcnSpec

variable (m : (ℓ : Loc nD τ sig) → Buf (Elt Ideal) ℓ) (ρ : Dev nD → PrngReg) (c : Dev nD)

/-- The six arguments as launched on core c. -/
abbrev aX := m ((c : Thread nD τ).loc main_arg0)
abbrev aE := m ((c : Thread nD τ).loc main_arg1)
abbrev aW1 := m ((c : Thread nD τ).loc main_arg2)
abbrev aB1 := m ((c : Thread nD τ).loc main_arg3)
abbrev aW2 := m ((c : Thread nD τ).loc main_arg4)
abbrev aB2 := m ((c : Thread nD τ).loc main_arg5)

/-- The first projection, the first layer, the second projection and the second layer of the arguments. -/
abbrev Z1 := prod (R := 150000) (K := 64) (C := 64) (aX m c) (aW1 m c)
abbrev H1 := layer1 (Z1 m c) (aE m c) (aB1 m c)
abbrev Z2 := prod (R := 150000) (K := 64) (C := 1) (H1 m c) (aW2 m c)
abbrev H2 := layer2 (Z2 m c) (aE m c) (aB2 m c)

theorem prod_congr {R K C : Nat} {x x' : Mat R K} {w w' : Mat K C} (hx : x = x') (hw : w = w') :
    prod x w = prod x' w' := by subst hx hw; rfl
theorem layerOut_congr {R C : Nat} {A A' z z' : Mat R C} {d d' : Mat R 1} {b b' : Mat 1 C}
    (hA : A = A') (hz : z = z') (hd : d = d') (hb : b = b') : layerOut A z d b = layerOut A' z' d' b' := by
  subst hA hz hd hb; rfl

/-! ## After the first host stretch: the edge list's rows, the inverse root degrees, the arguments -/

theorem w1_src : W1 m ρ c (Proc.devRef .tc main_v1) = src (aE m c) := by
  show StableHlo.after hostOps0 (W0 m ρ c) (Proc.devRef .tc main_v1) = _
  after_results
  rfl
theorem w1_dst : W1 m ρ c (Proc.devRef .tc main_v3) = dst (aE m c) := by
  show StableHlo.after hostOps0 (W0 m ρ c) (Proc.devRef .tc main_v3) = _
  after_results
  rfl
theorem w1_dinv : W1 m ρ c (Proc.devRef .tc main_v10) = dinv (dst (aE m c)) := by
  show StableHlo.after hostOps0 (W0 m ρ c) (Proc.devRef .tc main_v10) = _
  after_results
  rfl
theorem w1_dsq : W1 m ρ c (Proc.devRef .tc main_v12) = dinvSq (dinv (dst (aE m c))) := by
  show StableHlo.after hostOps0 (W0 m ρ c) (Proc.devRef .tc main_v12) = _
  after_results
  rfl
theorem w1_x : W1 m ρ c (Proc.devRef .tc main_arg0) = aX m c := by
  show StableHlo.after hostOps0 (W0 m ρ c) (Proc.devRef .tc main_arg0) = _
  after_results
theorem w1_w1 : W1 m ρ c (Proc.devRef .tc main_arg2) = aW1 m c := by
  show StableHlo.after hostOps0 (W0 m ρ c) (Proc.devRef .tc main_arg2) = _
  after_results
theorem w1_b1 : W1 m ρ c (Proc.devRef .tc main_arg3) = aB1 m c := by
  show StableHlo.after hostOps0 (W0 m ρ c) (Proc.devRef .tc main_arg3) = _
  after_results
theorem w1_w2 : W1 m ρ c (Proc.devRef .tc main_arg4) = aW2 m c := by
  show StableHlo.after hostOps0 (W0 m ρ c) (Proc.devRef .tc main_arg4) = _
  after_results
theorem w1_b2 : W1 m ρ c (Proc.devRef .tc main_arg5) = aB2 m c := by
  show StableHlo.after hostOps0 (W0 m ρ c) (Proc.devRef .tc main_arg5) = _
  after_results

/-! ## After the first projection -/

theorem w2_z : W2 m ρ c (Proc.devRef .tc main_v13) = Z1 m c :=
  (W2_arr m ρ c 2).trans ((Proj.array (V1 m ρ) c).trans (prod_congr (w1_x m ρ c) (w1_w1 m ρ c)))
theorem w2_src : W2 m ρ c (Proc.devRef .tc main_v1) = src (aE m c) := (W2_of_ne m ρ c main_v1 (by decide)).trans (w1_src m ρ c)
theorem w2_dst : W2 m ρ c (Proc.devRef .tc main_v3) = dst (aE m c) := (W2_of_ne m ρ c main_v3 (by decide)).trans (w1_dst m ρ c)
theorem w2_dinv : W2 m ρ c (Proc.devRef .tc main_v10) = dinv (dst (aE m c)) := (W2_of_ne m ρ c main_v10 (by decide)).trans (w1_dinv m ρ c)
theorem w2_dsq : W2 m ρ c (Proc.devRef .tc main_v12) = dinvSq (dinv (dst (aE m c))) := (W2_of_ne m ρ c main_v12 (by decide)).trans (w1_dsq m ρ c)
theorem w2_b1 : W2 m ρ c (Proc.devRef .tc main_arg3) = aB1 m c := (W2_of_ne m ρ c main_arg3 (by decide)).trans (w1_b1 m ρ c)
theorem w2_w2 : W2 m ρ c (Proc.devRef .tc main_arg4) = aW2 m c := (W2_of_ne m ρ c main_arg4 (by decide)).trans (w1_w2 m ρ c)
theorem w2_b2 : W2 m ρ c (Proc.devRef .tc main_arg5) = aB2 m c := (W2_of_ne m ρ c main_arg5 (by decide)).trans (w1_b2 m ρ c)

/-! ## After the second host stretch: the first layer's neighbour sum and its bias as a row -/

theorem w3_nbr : W3 m ρ c (Proc.devRef .tc main_v41) = nbrSum64 (Z1 m c) (dinv (dst (aE m c))) (src (aE m c)) (dst (aE m c)) := by
  have h : W3 m ρ c (Proc.devRef .tc main_v41)
      = nbrSum64 (W2 m ρ c (Proc.devRef .tc main_v13)) (W2 m ρ c (Proc.devRef .tc main_v10)) (W2 m ρ c (Proc.devRef .tc main_v1)) (W2 m ρ c (Proc.devRef .tc main_v3)) := by
    show StableHlo.after hostOps1 (W2 m ρ c) (Proc.devRef .tc main_v41) = _
    after_results_simp <;> rfl
  rw [h, w2_z, w2_dinv, w2_src, w2_dst]
theorem w3_b1 : W3 m ρ c (Proc.devRef .tc main_v42) = shapeCast _ (aB1 m c) Facts₀.shapeCasts_S64_S1x64 := by
  have h : W3 m ρ c (Proc.devRef .tc main_v42) = shapeCast _ (W2 m ρ c (Proc.devRef .tc main_arg3)) Facts₀.shapeCasts_S64_S1x64 := by
    show StableHlo.after hostOps1 (W2 m ρ c) (Proc.devRef .tc main_v42) = _
    after_results_simp <;> rfl
  rw [h, w2_b1]
theorem w3_z : W3 m ρ c (Proc.devRef .tc main_v13) = Z1 m c := by
  have h : W3 m ρ c (Proc.devRef .tc main_v13) = W2 m ρ c (Proc.devRef .tc main_v13) := by
    show StableHlo.after hostOps1 (W2 m ρ c) (Proc.devRef .tc main_v13) = _
    after_results_simp <;> rfl
  rw [h, w2_z]
theorem w3_dsq : W3 m ρ c (Proc.devRef .tc main_v12) = dinvSq (dinv (dst (aE m c))) := by
  have h : W3 m ρ c (Proc.devRef .tc main_v12) = W2 m ρ c (Proc.devRef .tc main_v12) := by
    show StableHlo.after hostOps1 (W2 m ρ c) (Proc.devRef .tc main_v12) = _
    after_results_simp <;> rfl
  rw [h, w2_dsq]
theorem w3_src : W3 m ρ c (Proc.devRef .tc main_v1) = src (aE m c) := by
  have h : W3 m ρ c (Proc.devRef .tc main_v1) = W2 m ρ c (Proc.devRef .tc main_v1) := by
    show StableHlo.after hostOps1 (W2 m ρ c) (Proc.devRef .tc main_v1) = _
    after_results_simp <;> rfl
  rw [h, w2_src]
theorem w3_dst : W3 m ρ c (Proc.devRef .tc main_v3) = dst (aE m c) := by
  have h : W3 m ρ c (Proc.devRef .tc main_v3) = W2 m ρ c (Proc.devRef .tc main_v3) := by
    show StableHlo.after hostOps1 (W2 m ρ c) (Proc.devRef .tc main_v3) = _
    after_results_simp <;> rfl
  rw [h, w2_dst]
theorem w3_dinv : W3 m ρ c (Proc.devRef .tc main_v10) = dinv (dst (aE m c)) := by
  have h : W3 m ρ c (Proc.devRef .tc main_v10) = W2 m ρ c (Proc.devRef .tc main_v10) := by
    show StableHlo.after hostOps1 (W2 m ρ c) (Proc.devRef .tc main_v10) = _
    after_results_simp <;> rfl
  rw [h, w2_dinv]
theorem w3_w2 : W3 m ρ c (Proc.devRef .tc main_arg4) = aW2 m c := by
  have h : W3 m ρ c (Proc.devRef .tc main_arg4) = W2 m ρ c (Proc.devRef .tc main_arg4) := by
    show StableHlo.after hostOps1 (W2 m ρ c) (Proc.devRef .tc main_arg4) = _
    after_results_simp <;> rfl
  rw [h, w2_w2]
theorem w3_b2 : W3 m ρ c (Proc.devRef .tc main_arg5) = aB2 m c := by
  have h : W3 m ρ c (Proc.devRef .tc main_arg5) = W2 m ρ c (Proc.devRef .tc main_arg5) := by
    show StableHlo.after hostOps1 (W2 m ρ c) (Proc.devRef .tc main_arg5) = _
    after_results_simp <;> rfl
  rw [h, w2_b2]

/-! ## After the first layer's last step -/

theorem w4_h : W4 m ρ c (Proc.devRef .tc main_v43) = H1 m c :=
  (W4_arr m ρ c 4).trans ((Fin1.array (V3 m ρ) c).trans
    (layerOut_congr (w3_nbr m ρ c) (w3_z m ρ c) (w3_dsq m ρ c) (w3_b1 m ρ c)))
theorem w4_src : W4 m ρ c (Proc.devRef .tc main_v1) = src (aE m c) := (W4_of_ne m ρ c main_v1 (by decide)).trans (w3_src m ρ c)
theorem w4_dst : W4 m ρ c (Proc.devRef .tc main_v3) = dst (aE m c) := (W4_of_ne m ρ c main_v3 (by decide)).trans (w3_dst m ρ c)
theorem w4_dinv : W4 m ρ c (Proc.devRef .tc main_v10) = dinv (dst (aE m c)) := (W4_of_ne m ρ c main_v10 (by decide)).trans (w3_dinv m ρ c)
theorem w4_w2 : W4 m ρ c (Proc.devRef .tc main_arg4) = aW2 m c := (W4_of_ne m ρ c main_arg4 (by decide)).trans (w3_w2 m ρ c)
theorem w4_b2 : W4 m ρ c (Proc.devRef .tc main_arg5) = aB2 m c := (W4_of_ne m ρ c main_arg5 (by decide)).trans (w3_b2 m ρ c)
/-- The column of squared inverse root degrees is an input of the step: it leaves it as it found it. -/
theorem w4_dsq : W4 m ρ c (Proc.devRef .tc main_v12) = dinvSq (dinv (dst (aE m c))) :=
  (W4_arr m ρ c 2).trans ((((dat1 (V3 m ρ) c).arrAt_in 2 rfl _).trans (A_eq1 (V3 m ρ) c 2)).trans (w3_dsq m ρ c))

/-! ## After the second projection -/

theorem w5_z : W5 m ρ c (Proc.devRef .tc main_v44) = Z2 m c :=
  (W5_arr m ρ c 2).trans ((Proj2.array (V4 m ρ) c).trans (prod_congr (w4_h m ρ c) (w4_w2 m ρ c)))
theorem w5_src : W5 m ρ c (Proc.devRef .tc main_v1) = src (aE m c) := (W5_of_ne m ρ c main_v1 (by decide)).trans (w4_src m ρ c)
theorem w5_dst : W5 m ρ c (Proc.devRef .tc main_v3) = dst (aE m c) := (W5_of_ne m ρ c main_v3 (by decide)).trans (w4_dst m ρ c)
theorem w5_dinv : W5 m ρ c (Proc.devRef .tc main_v10) = dinv (dst (aE m c)) := (W5_of_ne m ρ c main_v10 (by decide)).trans (w4_dinv m ρ c)
theorem w5_dsq : W5 m ρ c (Proc.devRef .tc main_v12) = dinvSq (dinv (dst (aE m c))) := (W5_of_ne m ρ c main_v12 (by decide)).trans (w4_dsq m ρ c)
theorem w5_b2 : W5 m ρ c (Proc.devRef .tc main_arg5) = aB2 m c := (W5_of_ne m ρ c main_arg5 (by decide)).trans (w4_b2 m ρ c)

/-! ## After the third host stretch: the second layer's neighbour sum and its bias as a row -/

theorem w6_nbr : W6 m ρ c (Proc.devRef .tc main_v71) = nbrSum1 (Z2 m c) (dinv (dst (aE m c))) (src (aE m c)) (dst (aE m c)) := by
  have h : W6 m ρ c (Proc.devRef .tc main_v71)
      = nbrSum1 (W5 m ρ c (Proc.devRef .tc main_v44)) (W5 m ρ c (Proc.devRef .tc main_v10)) (W5 m ρ c (Proc.devRef .tc main_v1)) (W5 m ρ c (Proc.devRef .tc main_v3)) := by
    show StableHlo.after hostOps3 (W5 m ρ c) (Proc.devRef .tc main_v71) = _
    after_results_simp <;> rfl
  rw [h, w5_z, w5_dinv, w5_src, w5_dst]
theorem w6_b2 : W6 m ρ c (Proc.devRef .tc main_v72) = shapeCast _ (aB2 m c) Facts₀.shapeCasts_S1_S1x1 := by
  have h : W6 m ρ c (Proc.devRef .tc main_v72) = shapeCast _ (W5 m ρ c (Proc.devRef .tc main_arg5)) Facts₀.shapeCasts_S1_S1x1 := by
    show StableHlo.after hostOps3 (W5 m ρ c) (Proc.devRef .tc main_v72) = _
    after_results_simp <;> rfl
  rw [h, w5_b2]
theorem w6_z : W6 m ρ c (Proc.devRef .tc main_v44) = Z2 m c := by
  have h : W6 m ρ c (Proc.devRef .tc main_v44) = W5 m ρ c (Proc.devRef .tc main_v44) := by
    show StableHlo.after hostOps3 (W5 m ρ c) (Proc.devRef .tc main_v44) = _
    after_results_simp <;> rfl
  rw [h, w5_z]
theorem w6_dsq : W6 m ρ c (Proc.devRef .tc main_v12) = dinvSq (dinv (dst (aE m c))) := by
  have h : W6 m ρ c (Proc.devRef .tc main_v12) = W5 m ρ c (Proc.devRef .tc main_v12) := by
    show StableHlo.after hostOps3 (W5 m ρ c) (Proc.devRef .tc main_v12) = _
    after_results_simp <;> rfl
  rw [h, w5_dsq]

/-! ## After the second layer's last step, and the result -/

theorem w7_h : W7 m ρ c (Proc.devRef .tc main_v73) = H2 m c :=
  (W7_arr m ρ c 4).trans ((Fin2.array (V6 m ρ) c).trans
    (layerOut_congr (w6_nbr m ρ c) (w6_z m ρ c) (w6_dsq m ρ c) (w6_b2 m ρ c)))

/-- The result array ends at the network's function of the six arguments. -/
theorem result : W8 m ρ c (Proc.devRef .tc main_v76) = gcn (aX m c) (aE m c) (aW1 m c) (aB1 m c) (aW2 m c) (aB2 m c) := by
  have h : W8 m ρ c (Proc.devRef .tc main_v76) = regroup (W7 m ρ c (Proc.devRef .tc main_v73)) := by
    show StableHlo.after hostOps4 (W7 m ρ c) (Proc.devRef .tc main_v76) = _
    after_results
    rfl
  rw [h, w7_h]
  rfl

end Cert.KernelIdeal.Fold

end
-- ==== Proof.RefStages.lean ====
/-
  The reference program, stage by stage, is the same network: its whole-array matrix products are `prod`, its
  gathers, scatters and index shifts are the shared edge operations term for term, and its pointwise
  add / multiply / maximum over broadcast operands is `layerOut` entry by entry (the per-node factor dinv² and the
  bias reach an entry through two broadcasts where the kernel's program casts them to a column and a row). It computes
  the inverse root degrees twice, once per layer, from the same targets.
-/
import proofs.«179537_j61512521613335_1_alg».proof.Proof.Gen.ReferenceIdeal.Read
import proofs.«179537_j61512521613335_1_alg».proof.Proof.EdgeOps
import Idealize.ShloMosaic.Lib.ValueLayout

set_option maxRecDepth 16384

noncomputable section

namespace Cert.RefStages

open Idealize.ShloMosaic Idealize.ShloMosaic.ValueIdx
open Cert.ReferenceIdeal Cert.ReferenceIdeal.Read Cert.KernelIdeal.Edge Cert.GcnSpec

variable (x0 : Arr Cert.KernelIdeal.S150000x64 .f32) (x1 : Arr Cert.KernelIdeal.S2x1200000 .i32)
  (x2 : Arr Cert.KernelIdeal.S64x64 .f32) (x3 : Arr Cert.KernelIdeal.S64 .f32)
  (x4 : Arr Cert.KernelIdeal.S64x1 .f32) (x5 : Arr Cert.KernelIdeal.S1 .f32)

/-! ## The edge operations -/

theorem src_eq : val_main_v1 (F := Ideal) x1 = src x1 := by
  unfold val_main_v1 val_main_v0; rfl
theorem dst_eq : val_main_v3 (F := Ideal) x1 = dst x1 := by
  unfold val_main_v3 val_main_v2; rfl
/-- The inverse root degrees, as the first layer computes them. -/
theorem dinv_eq : val_main_v11 (F := Ideal) x1 = dinv (dst x1) := by
  unfold val_main_v11 val_main_v10 val_main_v9 val_main_v8 val_main_v7 val_main_v6 val_main_v5 val_main_cst val_main_cst_0
    val_main_cst_1 val_main_v3 val_main_v2
  rfl
/-- The inverse root degrees, as the second layer computes them again. -/
theorem dinv_eq' : val_main_v56 (F := Ideal) x1 = dinv (dst x1) := by
  unfold val_main_v56 val_main_v55 val_main_v54 val_main_v53 val_main_v52 val_main_v51 val_main_v50 val_main_cst_8
    val_main_cst_9 val_main_cst_10 val_main_v3 val_main_v2
  rfl

/-! ## The first layer -/

/-- The reference's first matrix product is the product. -/
theorem z1_eq : val_main_v4 (F := Ideal) x0 x2 = prod (R := 150000) (K := 64) (C := 64) x0 x2 := by
  funext i
  rw [val_main_v4_apply]
  unfold prod
  refine Finset.sum_congr rfl fun k _ => ?_
  have el : lidx_main_v4 i k = ix2 (i 0 : Fin 150000) k := funext fun a => Fin.ext (by match a with | ⟨0, _⟩ => rfl | ⟨1, _⟩ => rfl)
  have er : ridx_main_v4 i k = ix2 k (i 1 : Fin 64) := funext fun a => Fin.ext (by match a with | ⟨0, _⟩ => rfl | ⟨1, _⟩ => rfl)
  rw [el, er]
  rfl

/-- The reference's first neighbour sum is the shared one of its product. -/
theorem nbr1_eq : val_main_v39 (F := Ideal) x0 x1 x2
    = nbrSum64 (val_main_v4 (F := Ideal) x0 x2) (dinv (dst x1)) (src x1) (dst x1) := by
  rw [← dinv_eq x1]
  unfold val_main_v39 val_main_v38 val_main_v37 val_main_cst_7 val_main_v36 val_main_v35 val_main_v34 val_main_v33 val_main_v32
    val_main_v31 val_main_v30 val_main_v29 val_main_c_6 val_main_v28 val_main_v27 val_main_c_5 val_main_v26 val_main_v25 val_main_v24
    val_main_v23 val_main_v22 val_main_v21 val_main_c_4 val_main_v20 val_main_v19 val_main_c_3 val_main_v18 val_main_v17 val_main_v16
    val_main_v15 val_main_v14 val_main_c_2 val_main_v13 val_main_v12 val_main_c val_main_v3 val_main_v2 val_main_v1 val_main_v0
  rfl

/-- The layer's last step read at an entry (p, q). -/
theorem layerOut_ix2 {R C : Nat} (A z : Mat R C) (d : Mat R 1) (b : Mat 1 C) (p : Fin R) (q : Fin C) :
    layerOut A z d b (ix2 p q)
      = max ((A (ix2 p q) + z (ix2 p q) * d (ix2 p (0 : Fin 1))) + b (ix2 (0 : Fin 1) q)) (Ideal.ofBits .f32 0x00000000#32) := rfl

/-- The column of squared inverse root degrees at node p is dinv(p) · dinv(p). -/
theorem dinvSq_apply (d : Arr Cert.KernelIdeal.S150000 .f32) (p : Fin 150000) :
    dinvSq d (ix2 p (0 : Fin 1)) = d (ix1 p) * d (ix1 p) := by
  unfold dinvSq
  exact shapeCast_apply (mulf (F := Ideal) (φ := .f32) d d) Cert.KernelIdeal.Facts₀.shapeCasts_S150000_S150000x1
    (ix2 p (0 : Fin 1)) (ix1 p)
    (by rw [Shape.rowMajor_val_two, Shape.rowMajor_val_one]; show p.val = p.val * 1 + 0; omega)

/-- The reference's first layer is the layer's last step of its product: at an entry (p, q) both are
    max((A(p, q) + z(p, q) · (dinv(p) · dinv(p))) + b(q), 0). -/
theorem layer1_eq : val_main_v48 (F := Ideal) x0 x1 x2 x3 = layer1 (val_main_v4 (F := Ideal) x0 x2) x1 x3 := by
  funext i
  obtain ⟨p, q, rfl⟩ : ∃ (p : Fin 150000) (q : Fin 64), i = ix2 p q := ⟨i 0, i 1, eq_ix2 i⟩
  have e1 : idx_main_v41 (idx_main_v42 (ix2 p q)) = ix1 p := funext fun a => Fin.ext (by match a with | ⟨0, _⟩ => rfl)
  have e2 : idx_main_v45 (idx_main_v46 (ix2 p q)) = ix1 q := funext fun a => Fin.ext (by match a with | ⟨0, _⟩ => rfl)
  rw [val_main_v48_apply, val_main_v47_apply, val_main_v44_apply, val_main_v43_apply, val_main_v42_apply, val_main_v41_apply,
    val_main_v40_apply, val_main_v46_apply, val_main_v45_apply, val_main_call0_v0_apply, val_main_call0_cst_apply, nbr1_eq,
    dinv_eq, e1, e2]
  unfold layer1
  rw [layerOut_ix2, dinvSq_apply, shapeCast_a_1a_apply]
  rfl

/-! ## The second layer -/

/-- The reference's second matrix product is the product of the first layer's output with the column of weights. -/
theorem z2_eq : val_main_v49 (F := Ideal) x0 x1 x2 x3 x4
    = prod (R := 150000) (K := 64) (C := 1) (val_main_v48 (F := Ideal) x0 x1 x2 x3) x4 := by
  funext i
  rw [val_main_v49_apply]
  unfold prod
  refine Finset.sum_congr rfl fun k _ => ?_
  have el : lidx_main_v49 i k = ix2 (i 0 : Fin 150000) k := funext fun a => Fin.ext (by match a with | ⟨0, _⟩ => rfl | ⟨1, _⟩ => rfl)
  have er : ridx_main_v49 i k = ix2 k (i 1 : Fin 1) := funext fun a => Fin.ext (by match a with | ⟨0, _⟩ => rfl | ⟨1, _⟩ => rfl)
  rw [el, er]
  rfl

/-- The reference's second neighbour sum is the shared one of its second product. -/
theorem nbr2_eq : val_main_v83 (F := Ideal) x0 x1 x2 x3 x4
    = nbrSum1 (val_main_v49 (F := Ideal) x0 x1 x2 x3 x4) (dinv (dst x1)) (src x1) (dst x1) := by
  rw [← dinv_eq' x1]
  unfold val_main_v83 val_main_v82 val_main_v81 val_main_cst_17 val_main_v80 val_main_v79 val_main_v78 val_main_v77 val_main_v76
    val_main_v75 val_main_v74 val_main_c_16 val_main_v73 val_main_v72 val_main_c_15 val_main_v71 val_main_v70 val_main_v69 val_main_v68
    val_main_v67 val_main_v66 val_main_c_14 val_main_v65 val_main_v64 val_main_c_13 val_main_v63 val_main_v62 val_main_v61 val_main_v60
    val_main_v59 val_main_c_12 val_main_v58 val_main_v57 val_main_c_11 val_main_v3 val_main_v2 val_main_v1 val_main_v0
  rfl

/-- The reference's second layer is the layer's last step of its second product. -/
theorem layer2_eq : val_main_v91 (F := Ideal) x0 x1 x2 x3 x4 x5
    = layer2 (val_main_v49 (F := Ideal) x0 x1 x2 x3 x4) x1 x5 := by
  funext i
  obtain ⟨p, q, rfl⟩ : ∃ (p : Fin 150000) (q : Fin 1), i = ix2 p q := ⟨i 0, i 1, eq_ix2 i⟩
  have e1 : idx_main_v85 (ix2 p q) = ix1 p := funext fun a => Fin.ext (by match a with | ⟨0, _⟩ => rfl)
  have e2 : idx_main_v88 (idx_main_v89 (ix2 p q)) = ix1 q :=
    funext fun a => Fin.ext (by match a with | ⟨0, _⟩ => (show 0 = q.val; omega))
  rw [val_main_v91_apply, val_main_v90_apply, val_main_v87_apply, val_main_v86_apply, val_main_v85_apply, val_main_v84_apply,
    val_main_v89_apply, val_main_v88_apply, val_main_call1_v0_apply, val_main_call1_cst_apply, nbr2_eq, dinv_eq', e1, e2]
  unfold layer2
  rw [layerOut_ix2, dinvSq_apply, shapeCast_a_1a_apply]
  rfl

/-- The reference lays its result out as the kernel's program does. -/
theorem out_eq : val_main_v94 (F := Ideal) x0 x1 x2 x3 x4 x5 = regroup (val_main_v91 (F := Ideal) x0 x1 x2 x3 x4 x5) := by
  unfold val_main_v94 val_main_v93 val_main_v92
  rfl

/-- The reference's result is the network's function of the six arguments. -/
theorem result : val_main_v94 (F := Ideal) x0 x1 x2 x3 x4 x5 = gcn x0 x1 x2 x3 x4 x5 := by
  rw [out_eq, layer2_eq, z2_eq, layer1_eq, z1_eq]
  rfl

end Cert.RefStages

end
-- ==== Proof.lean ====
/-
  Two graph-convolution layers and a regrouping of the result, computed by a kernel program and by a reference.

  With  deg(n) = 1 + the number of edges into node n,  dinv = deg^(-1/2),  an edge's weight dinv(source) · dinv(target),
  a layer maps x to  max((A + z · dinv²) + b, 0)  where  z = x · W  and  A  adds into each target's row the weighted
  row of z at the edge's source. The kernel program computes z and the last, pointwise step in 25 blocks of 6000 rows
  each and everything between them with the host operations the reference also uses; the reference computes z by one
  whole matrix product and the last step by whole-array additions, a multiplication and a maximum.

  Over the extended reals the two agree with no condition on the inputs: a block of z is the product of the block's
  rows (narrowing the operands to bf16 changes no value, the accumulator starts at zero, and the product is the sum
  over the 64 contracted positions on either side), the blocks tile the rows, the pointwise step is the same expression
  entry by entry with the same grouping of its two additions, and the gathers, scatter-adds and index shifts are the
  same terms. Both runs are stated at one function `gcn` of the six arguments (Proof/EdgeOps.lean): the kernel's
  through the contents of its buffers at each boundary of @main (Proof/KernelFold.lean over the four regions' arrays,
  Proof/ProjBlocks*.lean and Proof/FinBlocks*.lean), the reference's stage by stage (Proof/RefStages.lean). No
  operation was rewritten by the idealization, so the kernel's idealized program is its own text.
-/
import proofs.«179537_j61512521613335_1_alg».proof.Defs
import proofs.«179537_j61512521613335_1_alg».proof.Proof.Gen.Kernel
import proofs.«179537_j61512521613335_1_alg».proof.Proof.Gen.Kernel.Skeleton
import proofs.«179537_j61512521613335_1_alg».proof.Proof.Gen.Kernel.Launch
import proofs.«179537_j61512521613335_1_alg».proof.Proof.Gen.Kernel.Points
import proofs.«179537_j61512521613335_1_alg».proof.Proof.Gen.Kernel.Frame
import proofs.«179537_j61512521613335_1_alg».proof.Proof.Gen.KernelIdeal
import proofs.«179537_j61512521613335_1_alg».proof.Proof.Gen.KernelIdeal.Skeleton
import proofs.«179537_j61512521613335_1_alg».proof.Proof.Gen.KernelIdeal.Launch
import proofs.«179537_j61512521613335_1_alg».proof.Proof.Gen.KernelIdeal.Points
import proofs.«179537_j61512521613335_1_alg».proof.Proof.Gen.KernelIdeal.Frame
import proofs.«179537_j61512521613335_1_alg».proof.Proof.Gen.ReferenceIdeal
import proofs.«179537_j61512521613335_1_alg».proof.Proof.Gen.ReferenceIdeal.Run
import proofs.«179537_j61512521613335_1_alg».proof.Proof.Gen.ReferenceIdeal.Read
import proofs.«179537_j61512521613335_1_alg».proof.Proof.Gen.Pre_finite_inputs
import proofs.«179537_j61512521613335_1_alg».proof.Proof.KernelRun
import proofs.«179537_j61512521613335_1_alg».proof.Proof.KernelFold
import proofs.«179537_j61512521613335_1_alg».proof.Proof.RefStages
import Idealize.ShloMosaic.Adequacy
import Idealize.ShloMosaic.Init

noncomputable section

namespace Cert.Proof

open Idealize.ShloMosaic Idealize.ShloMosaic.TcCoe Idealize.SL.Sem

/-- The kernel program as printed runs and leaves its arguments as launched. -/
theorem frame_k : Cert.frame_Kernel := fun m ρ _ => Cert.Kernel.Gen.frame m ρ
/-- So does its idealized text. -/
theorem frame_ki : Cert.frame_KernelIdeal := fun m ρ _ => Cert.KernelIdeal.Gen.frame m ρ
/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the six arguments both programs end with the result array at `gcn` of the
    arguments: the kernel's run read through its boundaries, the reference's stage by stage. -/
theorem algebraic : Cert.algebraic_KernelIdeal_ReferenceIdeal := by
  intro m ρ m' ρ' _ hagree
  refine ⟨fun c => Cert.KernelIdeal.Edge.gcn
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Fold.result m ρ c), (h c).2⟩)
      (Cert.KernelIdeal.ResultRun.run (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v94_eq, Cert.RefStages.result, (hagree c).1, (hagree c).2.1,
      (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
